-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256 : Shape := ⟨2, ![64, 256]⟩
abbrev S64x384 : Shape := ⟨2, ![64, 384]⟩
abbrev S50000x512 : Shape := ⟨2, ![50000, 512]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg8 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg8
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : IVec S64x256 32) (main_arg1 : IVec S64x384 32) (main_arg2 : IVec S64x256 32) (main_arg3 : IVec S64x384 32) (main_arg4 : FVec F S50000x512 .f32) (main_arg5 : FVec F S2048x512 .f32) (main_arg6 : FVec F S512 .f32) (main_arg7 : FVec F S512x1 .f32) (main_arg8 : FVec F S1 .f32) : IVec S_ 1 :=
  let main_v0 : FVec F S50000x512 .f32 := Host.absf main_arg4
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S2048x512 .f32 := Host.absf main_arg5
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512 .f32 := Host.absf main_arg6
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1 .f32 := Host.absf main_arg7
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg8 main_v13 main_v16
-- ==== Kernel.lean ====
abbrev S64x256 : Shape := ⟨2, ![64, 256]⟩
abbrev S64x384 : Shape := ⟨2, ![64, 384]⟩
abbrev S50000x512 : Shape := ⟨2, ![50000, 512]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S_ : Shape := ⟨0, ![]⟩
abbrev S64x256x1 : Shape := ⟨3, ![64, 256, 1]⟩
abbrev S64x256x512 : Shape := ⟨3, ![64, 256, 512]⟩
abbrev S64x384x1 : Shape := ⟨3, ![64, 384, 1]⟩
abbrev S64x384x512 : Shape := ⟨3, ![64, 384, 512]⟩
abbrev S64x1 : Shape := ⟨2, ![64, 1]⟩
abbrev S8x256x512 : Shape := ⟨3, ![8, 256, 512]⟩
abbrev S8x384x512 : Shape := ⟨3, ![8, 384, 512]⟩
abbrev S8x1 : Shape := ⟨2, ![8, 1]⟩
abbrev S8x512 : Shape := ⟨2, ![8, 512]⟩
abbrev S8x2048 : Shape := ⟨2, ![8, 2048]⟩
abbrev S1x512 : Shape := ⟨2, ![1, 512]⟩
abbrev S1x1 : Shape := ⟨2, ![1, 1]⟩

abbrev nBuf : Space → Nat
  | .hbm => 30
  | .vmem => 10
  | .smem => 0
  | _ => 0

abbrev bufTy : (tb : Table) → Fin (tcTables nBuf tb) → BufTy
  | .hbm, ⟨0, _⟩ => ⟨S64x256, .i32⟩
  | .hbm, ⟨1, _⟩ => ⟨S64x384, .i32⟩
  | .hbm, ⟨2, _⟩ => ⟨S64x256, .i32⟩
  | .hbm, ⟨3, _⟩ => ⟨S64x384, .i32⟩
  | .hbm, ⟨4, _⟩ => ⟨S50000x512, .f32⟩
  | .hbm, ⟨5, _⟩ => ⟨S2048x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S_, .i32⟩
  | .hbm, ⟨10, _⟩ => ⟨S64x256, .i32⟩
  | .hbm, ⟨11, _⟩ => ⟨S64x256, .i1⟩
  | .hbm, ⟨12, _⟩ => ⟨S_, .i32⟩
  | .hbm, ⟨13, _⟩ => ⟨S64x256, .i32⟩
  | .hbm, ⟨14, _⟩ => ⟨S64x256, .i32⟩
  | .hbm, ⟨15, _⟩ => ⟨S64x256, .i32⟩
  | .hbm, ⟨16, _⟩ => ⟨S64x256x1, .i32⟩
  | .hbm, ⟨17, _⟩ => ⟨S64x256x512, .f32⟩
  | .hbm, ⟨18, _⟩ => ⟨S_, .i32⟩
  | .hbm, ⟨19, _⟩ => ⟨S64x384, .i32⟩
  | .hbm, ⟨20, _⟩ => ⟨S64x384, .i1⟩
  | .hbm, ⟨21, _⟩ => ⟨S_, .i32⟩
  | .hbm, ⟨22, _⟩ => ⟨S64x384, .i32⟩
  | .hbm, ⟨23, _⟩ => ⟨S64x384, .i32⟩
  | .hbm, ⟨24, _⟩ => ⟨S64x384, .i32⟩
  | .hbm, ⟨25, _⟩ => ⟨S64x384x1, .i32⟩
  | .hbm, ⟨26, _⟩ => ⟨S64x384x512, .f32⟩
  | .hbm, ⟨27, _⟩ => ⟨S2048x512, .bf16⟩
  | .hbm, ⟨28, _⟩ => ⟨S512x1, .bf16⟩
  | .hbm, ⟨29, _⟩ => ⟨S64x1, .f32⟩
  | .local _ .vmem, ⟨0, _⟩ => ⟨S8x256x512, .f32⟩
  | .local _ .vmem, ⟨1, _⟩ => ⟨S8x256x512, .f32⟩
  | .local _ .vmem, ⟨2, _⟩ => ⟨S8x384x512, .f32⟩
  | .local _ .vmem, ⟨3, _⟩ => ⟨S8x384x512, .f32⟩
  | .local _ .vmem, ⟨4, _⟩ => ⟨S2048x512, .bf16⟩
  | .local _ .vmem, ⟨5, _⟩ => ⟨S512, .f32⟩
  | .local _ .vmem, ⟨6, _⟩ => ⟨S512x1, .bf16⟩
  | .local _ .vmem, ⟨7, _⟩ => ⟨S1, .f32⟩
  | .local _ .vmem, ⟨8, _⟩ => ⟨S8x1, .f32⟩
  | .local _ .vmem, ⟨9, _⟩ => ⟨S8x1, .f32⟩
  | _, _ => ⟨S64x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  bcast_S_S64x384 : S_.BroadcastsInDim S64x384 (![] : Fin 0 → Fin S64x384.rank)
  bcast_S64x384_S64x384x1_0_1 : S64x384.BroadcastsInDim S64x384x1 (![0, 1] : Fin 2 → Fin S64x384x1.rank)
  bitsLt_bf16_f32 : FTy.bits .bf16 < FTy.bits .f32
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  inb_S8x384x512_S8x384x512_0_0_0 : ∀ a, (![0, 0, 0] : Fin 3 → Nat) a + S8x384x512.size a ≤ S8x384x512.size a
  h_S8x384x512 : 0 < S8x384x512.numel
  shapeCasts_S8x384x512_S8x384x512 : S8x384x512.ShapeCasts S8x384x512
  reduces_S8x256x512_S8x512 : S8x256x512.Reduces [1] S8x512
  reduces_S8x384x512_S8x512 : S8x384x512.Reduces [1] S8x512
  concatenates_S8x512_S8x512_S8x512_S8x512_S8x2048_d1 : Shape.Concatenates [S8x512, S8x512, S8x512, S8x512] S8x2048 1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  shapeCasts_S512_S1x512 : S512.ShapeCasts S1x512
  broadcasts_S1x512_S8x512 : S1x512.Broadcasts S8x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1_S1_0 : ∀ a, (![0] : Fin 1 → Nat) a + S1.size a ≤ S1.size a
  h_S1 : 0 < S1.numel
  shapeCasts_S1_S1x1 : S1.ShapeCasts S1x1
  broadcasts_S1x1_S8x1 : S1x1.Broadcasts S8x1
  inb_S8x1_S8x1_0_0 : ∀ a, (![0, 0] : Fin 2 → Nat) a + S8x1.size a ≤ S8x1.size a
  h_S8x1 : 0 < S8x1.numel
  gather_S50000x512_S64x256x1_S64x256x512_2_0_n_n_0_2_1512_wf : GatherDims.WF S50000x512 S64x256x1 S64x256x512 [2] [0] [] [0] [] 2 ![1, 512]
  gather_S50000x512_S64x384x1_S64x384x512_2_0_n_n_0_2_1512_wf : GatherDims.WF S50000x512 S64x384x1 S64x384x512 [2] [0] [] [0] [] 2 ![1, 512]
  dot_S8x2048_S2048x512_S8x512_1_0_0_1_n_n_wf : DotDims.WF S8x2048 S2048x512 S8x512 [1] [0] [0] [1] [] []
  dot_S8x512_S512x1_S8x1_1_0_0_1_n_n_wf : DotDims.WF S8x512 S512x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S64x256x512.size a
  hwx0_0 : ∀ i : grid0.Coords, EltTy.bits .f32 = 32 ∨ (Rect.block (s := S64x256x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x384x512.size a ≤ S64x384x512.size a
  hwx0_1 : ∀ i : grid0.Coords, EltTy.bits .f32 = 32 ∨ (Rect.block (s := S64x384x512) S8x384x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .bf16 = 32 ∨ (Rect.block (s := S512x1) S512x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S64x1.size a
  hwx0_6 : ∀ i : grid0.Coords, EltTy.bits .f32 = 32 ∨ (Rect.block (s := S64x1) S8x1.size (cc0_transform_6 i) (hinb0_6 i)).WholeWords (EltTy.packing .f32)

variable [Facts₀]

def gather_S50000x512_S64x256x1_S64x256x512_2_0_n_n_0_2_1512 : GatherDims S50000x512 S64x256x1 S64x256x512 where
  offsetDims := [2]
  collapsedSliceDims := [0]
  operandBatchingDims := []
  startIndicesBatchingDims := []
  startIndexMap := [0]
  indexVectorDim := 2
  sliceSizes := ![1, 512]
  wf := gather_S50000x512_S64x256x1_S64x256x512_2_0_n_n_0_2_1512_wf
def gather_S50000x512_S64x384x1_S64x384x512_2_0_n_n_0_2_1512 : GatherDims S50000x512 S64x384x1 S64x384x512 where
  offsetDims := [2]
  collapsedSliceDims := [0]
  operandBatchingDims := []
  startIndicesBatchingDims := []
  startIndexMap := [0]
  indexVectorDim := 2
  sliceSizes := ![1, 512]
  wf := gather_S50000x512_S64x384x1_S64x384x512_2_0_n_n_0_2_1512_wf
def dot_S8x2048_S2048x512_S8x512_1_0_0_1_n_n : DotDims S8x2048 S2048x512 S8x512 where
  lhsContracting := [1]
  rhsContracting := [0]
  lhsNonContracting := [0]
  rhsNonContracting := [1]
  lhsBatch := []
  rhsBatch := []
  wf := dot_S8x2048_S2048x512_S8x512_1_0_0_1_n_n_wf
def dot_S8x512_S512x1_S8x1_1_0_0_1_n_n : DotDims S8x512 S512x1 S8x1 where
  lhsContracting := [1]
  rhsContracting := [0]
  lhsNonContracting := [0]
  rhsNonContracting := [1]
  lhsBatch := []
  rhsBatch := []
  wf := dot_S8x512_S512x1_S8x1_1_0_0_1_n_n_wf

abbrev win0_0 : Pipeline.Window sig grid0 :=
  Pipeline.Window.ofSpec (Memref.whole main_v6) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8x384x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S8x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x256 : Shape := ⟨2, ![64, 256]⟩
abbrev S64x384 : Shape := ⟨2, ![64, 384]⟩
abbrev S50000x512 : Shape := ⟨2, ![50000, 512]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S_ : Shape := ⟨0, ![]⟩
abbrev S64x256x1 : Shape := ⟨3, ![64, 256, 1]⟩
abbrev S64x256x512 : Shape := ⟨3, ![64, 256, 512]⟩
abbrev S64x384x1 : Shape := ⟨3, ![64, 384, 1]⟩
abbrev S64x384x512 : Shape := ⟨3, ![64, 384, 512]⟩
abbrev S64x256x384 : Shape := ⟨3, ![64, 256, 384]⟩
abbrev S64x1x384 : Shape := ⟨3, ![64, 1, 384]⟩
abbrev S64x256x1024 : Shape := ⟨3, ![64, 256, 1024]⟩
abbrev S64x384x1024 : Shape := ⟨3, ![64, 384, 1024]⟩
abbrev S64x1024 : Shape := ⟨2, ![64, 1024]⟩
abbrev S64x2048 : Shape := ⟨2, ![64, 2048]⟩
abbrev S64x512 : Shape := ⟨2, ![64, 512]⟩
abbrev S1x512 : Shape := ⟨2, ![1, 512]⟩
abbrev S64x1 : Shape := ⟨2, ![64, 1]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S64x256, .i32⟩
  | .hbm, ⟨1, _⟩ => ⟨S64x384, .i32⟩
  | .hbm, ⟨2, _⟩ => ⟨S64x256, .i32⟩
  | .hbm, ⟨3, _⟩ => ⟨S64x384, .i32⟩
  | .hbm, ⟨4, _⟩ => ⟨S50000x512, .f32⟩
  | .hbm, ⟨5, _⟩ => ⟨S2048x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S_, .i32⟩
  | .hbm, ⟨10, _⟩ => ⟨S64x256, .i32⟩
  | .hbm, ⟨11, _⟩ => ⟨S64x256, .i1⟩
  | .hbm, ⟨12, _⟩ => ⟨S_, .i32⟩
  | .hbm, ⟨13, _⟩ => ⟨S64x256, .i32⟩
  | .hbm, ⟨14, _⟩ => ⟨S64x256, .i32⟩
  | .hbm, ⟨15, _⟩ => ⟨S64x256, .i32⟩
  | .hbm, ⟨16, _⟩ => ⟨S64x256x1, .i32⟩
  | .hbm, ⟨17, _⟩ => ⟨S64x256x512, .f32⟩
  | .hbm, ⟨18, _⟩ => ⟨S_, .i32⟩
  | .hbm, ⟨19, _⟩ => ⟨S64x384, .i32⟩
  | .hbm, ⟨20, _⟩ => ⟨S64x384, .i1⟩
  | .hbm, ⟨21, _⟩ => ⟨S_, .i32⟩
  | .hbm, ⟨22, _⟩ => ⟨S64x384, .i32⟩
  | .hbm, ⟨23, _⟩ => ⟨S64x384, .i32⟩
  | .hbm, ⟨24, _⟩ => ⟨S64x384, .i32⟩
  | .hbm, ⟨25, _⟩ => ⟨S64x384x1, .i32⟩
  | .hbm, ⟨26, _⟩ => ⟨S64x384x512, .f32⟩
  | .hbm, ⟨27, _⟩ => ⟨S64x256x384, .f32⟩
  | .hbm, ⟨28, _⟩ => ⟨S_, .f32⟩
  | .hbm, ⟨29, _⟩ => ⟨S64x256x384, .f32⟩
  | .hbm, ⟨30, _⟩ => ⟨S64x256x384, .f32⟩
  | .hbm, ⟨31, _⟩ => ⟨S_, .f32⟩
  | .hbm, ⟨32, _⟩ => ⟨S64x384, .f32⟩
  | .hbm, ⟨33, _⟩ => ⟨S_, .f32⟩
  | .hbm, ⟨34, _⟩ => ⟨S64x384, .f32⟩
  | .hbm, ⟨35, _⟩ => ⟨S64x384, .f32⟩
  | .hbm, ⟨36, _⟩ => ⟨S64x1x384, .f32⟩
  | .hbm, ⟨37, _⟩ => ⟨S64x256x384, .f32⟩
  | .hbm, ⟨38, _⟩ => ⟨S64x256x384, .f32⟩
  | .hbm, ⟨39, _⟩ => ⟨S64x256x384, .f32⟩
  | .hbm, ⟨40, _⟩ => ⟨S_, .f32⟩
  | .hbm, ⟨41, _⟩ => ⟨S64x384, .f32⟩
  | .hbm, ⟨42, _⟩ => ⟨S64x1x384, .f32⟩
  | .hbm, ⟨43, _⟩ => ⟨S64x256x384, .f32⟩
  | .hbm, ⟨44, _⟩ => ⟨S64x256x384, .f32⟩
  | .hbm, ⟨45, _⟩ => ⟨S_, .f32⟩
  | .hbm, ⟨46, _⟩ => ⟨S64x256, .f32⟩
  | .hbm, ⟨47, _⟩ => ⟨S_, .f32⟩
  | .hbm, ⟨48, _⟩ => ⟨S64x256, .f32⟩
  | .hbm, ⟨49, _⟩ => ⟨S64x256, .f32⟩
  | .hbm, ⟨50, _⟩ => ⟨S64x256x1, .f32⟩
  | .hbm, ⟨51, _⟩ => ⟨S64x256x384, .f32⟩
  | .hbm, ⟨52, _⟩ => ⟨S64x256x384, .f32⟩
  | .hbm, ⟨53, _⟩ => ⟨S64x256x384, .f32⟩
  | .hbm, ⟨54, _⟩ => ⟨S_, .f32⟩
  | .hbm, ⟨55, _⟩ => ⟨S64x256, .f32⟩
  | .hbm, ⟨56, _⟩ => ⟨S64x256x1, .f32⟩
  | .hbm, ⟨57, _⟩ => ⟨S64x256x384, .f32⟩
  | .hbm, ⟨58, _⟩ => ⟨S64x256x384, .f32⟩
  | .hbm, ⟨59, _⟩ => ⟨S64x256x512, .f32⟩
  | .hbm, ⟨60, _⟩ => ⟨S64x384x512, .f32⟩
  | .hbm, ⟨61, _⟩ => ⟨S64x256x1024, .f32⟩
  | .hbm, ⟨62, _⟩ => ⟨S64x384x1024, .f32⟩
  | .hbm, ⟨63, _⟩ => ⟨S_, .f32⟩
  | .hbm, ⟨64, _⟩ => ⟨S64x1024, .f32⟩
  | .hbm, ⟨65, _⟩ => ⟨S_, .f32⟩
  | .hbm, ⟨66, _⟩ => ⟨S64x1024, .f32⟩
  | .hbm, ⟨67, _⟩ => ⟨S64x2048, .f32⟩
  | .hbm, ⟨68, _⟩ => ⟨S64x512, .f32⟩
  | .hbm, ⟨69, _⟩ => ⟨S1x512, .f32⟩
  | .hbm, ⟨70, _⟩ => ⟨S64x512, .f32⟩
  | .hbm, ⟨71, _⟩ => ⟨S64x512, .f32⟩
  | .hbm, ⟨72, _⟩ => ⟨S_, .f32⟩
  | .hbm, ⟨73, _⟩ => ⟨S64x512, .f32⟩
  | .hbm, ⟨74, _⟩ => ⟨S64x512, .f32⟩
  | .hbm, ⟨75, _⟩ => ⟨S64x1, .f32⟩
  | .hbm, ⟨76, _⟩ => ⟨S1x1, .f32⟩
  | .hbm, ⟨77, _⟩ => ⟨S64x1, .f32⟩
  | .hbm, ⟨78, _⟩ => ⟨S64x1, .f32⟩
  | .hbm, ⟨79, _⟩ => ⟨S64x1, .f32⟩
  | .hbm, ⟨80, _⟩ => ⟨S64x1, .f32⟩
  | .hbm, ⟨81, _⟩ => ⟨S_, .f32⟩
  | .hbm, ⟨82, _⟩ => ⟨S64x1, .f32⟩
  | .hbm, ⟨83, _⟩ => ⟨S64x1, .f32⟩
  | .hbm, ⟨84, _⟩ => ⟨S_, .f32⟩
  | .hbm, ⟨85, _⟩ => ⟨S64x1, .f32⟩
  | .hbm, ⟨86, _⟩ => ⟨S64x1, .f32⟩
  | _, _ => ⟨S64x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_cst : Ref sig .tc := ⟨.hbm, 28, rfl⟩
abbrev main_call0_v0 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  bcast_S_S64x384 : S_.BroadcastsInDim S64x384 (![] : Fin 0 → Fin S64x384.rank)
  bcast_S64x384_S64x384x1_0_1 : S64x384.BroadcastsInDim S64x384x1 (![0, 1] : Fin 2 → Fin S64x384x1.rank)
  bcast_S_S64x256x384 : S_.BroadcastsInDim S64x256x384 (![] : Fin 0 → Fin S64x256x384.rank)
  reducesTo_S64x256x384_S64x384_d1 : S64x256x384.ReducesTo [1] S64x384
  h_S_ : 0 < S_.numel
  bcast_S64x384_S64x1x384_0_2 : S64x384.BroadcastsInDim S64x1x384 (![0, 2] : Fin 2 → Fin S64x1x384.rank)
  bcast_S64x1x384_S64x256x384_0_1_2 : S64x1x384.BroadcastsInDim S64x256x384 (![0, 1, 2] : Fin 3 → Fin S64x256x384.rank)
  reducesTo_S64x256x384_S64x256_d2 : S64x256x384.ReducesTo [2] S64x256
  bcast_S64x256x1_S64x256x384_0_1_2 : S64x256x1.BroadcastsInDim S64x256x384 (![0, 1, 2] : Fin 3 → Fin S64x256x384.rank)
  concatenates_S64x256x512_S64x256x512_S64x256x1024_d2 : Shape.Concatenates [S64x256x512, S64x256x512] S64x256x1024 2
  concatenates_S64x384x512_S64x384x512_S64x384x1024_d2 : Shape.Concatenates [S64x384x512, S64x384x512] S64x384x1024 2
  reducesTo_S64x256x1024_S64x1024_d1 : S64x256x1024.ReducesTo [1] S64x1024
  reducesTo_S64x384x1024_S64x1024_d1 : S64x384x1024.ReducesTo [1] S64x1024
  concatenates_S64x1024_S64x1024_S64x2048_d1 : Shape.Concatenates [S64x1024, S64x1024] S64x2048 1
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  gather_S50000x512_S64x256x1_S64x256x512_2_0_n_n_0_2_1512_wf : GatherDims.WF S50000x512 S64x256x1 S64x256x512 [2] [0] [] [0] [] 2 ![1, 512]
  gather_S50000x512_S64x384x1_S64x384x512_2_0_n_n_0_2_1512_wf : GatherDims.WF S50000x512 S64x384x1 S64x384x512 [2] [0] [] [0] [] 2 ![1, 512]
  dot_S64x256x512_S64x384x512_S64x256x384_2_2_1_1_0_0_wf : DotDims.WF S64x256x512 S64x384x512 S64x256x384 [2] [2] [1] [1] [0] [0]
  dot_S64x256x384_S64x384x512_S64x256x512_2_1_1_2_0_0_wf : DotDims.WF S64x256x384 S64x384x512 S64x256x512 [2] [1] [1] [2] [0] [0]
  dot_S64x256x384_S64x256x512_S64x384x512_1_1_2_2_0_0_wf : DotDims.WF S64x256x384 S64x256x512 S64x384x512 [1] [1] [2] [2] [0] [0]
  dot_S64x2048_S2048x512_S64x512_1_0_0_1_n_n_wf : DotDims.WF S64x2048 S2048x512 S64x512 [1] [0] [0] [1] [] []
  dot_S64x512_S512x1_S64x1_1_0_0_1_n_n_wf : DotDims.WF S64x512 S512x1 S64x1 [1] [0] [0] [1] [] []

variable [Facts₀]

def gather_S50000x512_S64x256x1_S64x256x512_2_0_n_n_0_2_1512 : GatherDims S50000x512 S64x256x1 S64x256x512 where
  offsetDims := [2]
  collapsedSliceDims := [0]
  operandBatchingDims := []
  startIndicesBatchingDims := []
  startIndexMap := [0]
  indexVectorDim := 2
  sliceSizes := ![1, 512]
  wf := gather_S50000x512_S64x256x1_S64x256x512_2_0_n_n_0_2_1512_wf
def gather_S50000x512_S64x384x1_S64x384x512_2_0_n_n_0_2_1512 : GatherDims S50000x512 S64x384x1 S64x384x512 where
  offsetDims := [2]
  collapsedSliceDims := [0]
  operandBatchingDims := []
  startIndicesBatchingDims := []
  startIndexMap := [0]
  indexVectorDim := 2
  sliceSizes := ![1, 512]
  wf := gather_S50000x512_S64x384x1_S64x384x512_2_0_n_n_0_2_1512_wf
def dot_S64x256x512_S64x384x512_S64x256x384_2_2_1_1_0_0 : DotDims S64x256x512 S64x384x512 S64x256x384 where
  lhsContracting := [2]
  rhsContracting := [2]
  lhsNonContracting := [1]
  rhsNonContracting := [1]
  lhsBatch := [0]
  rhsBatch := [0]
  wf := dot_S64x256x512_S64x384x512_S64x256x384_2_2_1_1_0_0_wf
def dot_S64x256x384_S64x384x512_S64x256x512_2_1_1_2_0_0 : DotDims S64x256x384 S64x384x512 S64x256x512 where
  lhsContracting := [2]
  rhsContracting := [1]
  lhsNonContracting := [1]
  rhsNonContracting := [2]
  lhsBatch := [0]
  rhsBatch := [0]
  wf := dot_S64x256x384_S64x384x512_S64x256x512_2_1_1_2_0_0_wf
def dot_S64x256x384_S64x256x512_S64x384x512_1_1_2_2_0_0 : DotDims S64x256x384 S64x256x512 S64x384x512 where
  lhsContracting := [1]
  rhsContracting := [1]
  lhsNonContracting := [2]
  rhsNonContracting := [2]
  lhsBatch := [0]
  rhsBatch := [0]
  wf := dot_S64x256x384_S64x256x512_S64x384x512_1_1_2_2_0_0_wf
def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf
def dot_S64x512_S512x1_S64x1_1_0_0_1_n_n : DotDims S64x512 S512x1 S64x1 where
  lhsContracting := [1]
  rhsContracting := [0]
  lhsNonContracting := [0]
  rhsNonContracting := [1]
  lhsBatch := []
  rhsBatch := []
  wf := dot_S64x512_S512x1_S64x1_1_0_0_1_n_n_wf

class Facts : Prop extends Facts₀ where

variable [Facts]
-- ==== Proof.RefRun.lean ====
/-
  The reference's run: every weakly fair execution of its @main terminates with the result buffer at the last stage's
  value of the argument arrays, and the arguments unchanged.

  @main is a straight line of 78 host operations, so a buffer's final contents are the fold of the operations' results
  over the launch contents, and each operation's result at its own buffer is its function of its operands' contents
  (each value is written once).  Three operations join two arrays end to end; `join2` is that join with the two pieces
  as plain arguments, the same function.  Composed, the operations' functions of the argument arrays are the chain of
  stages `val_main_v59` unfolded.
-/
import proofs.«106932_j84335977824546_2_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Two arrays laid end to end along axis `a`, the two pieces as plain arguments. -/
def join2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair_eq_join2 {α : Type} (t : Shape) (a : Fin t.rank) (s₁ s₂ : Shape) (x₁ : s₁.Idx → α)
    (x₂ : s₂.Idx → α) (h : Shape.Concatenates [s₁, s₂] t a) :
    concatenate t a [⟨s₁, x₁⟩, ⟨s₂, x₂⟩] h = join2 t a s₁ s₂ x₁ x₂ h := rfl

set_option maxRecDepth 16384 in
set_option maxHeartbeats 40000000 in
/-- The result buffer after the 78 operations holds the last stage's value of the argument arrays. -/
theorem after_out (m : (ℓ : Loc nD τ sig) → Buf (Elt F) ℓ) (c : Dev nD) :
    after ops (launchContents m c) (Proc.devRef .tc main_v59)
      = val_main_v59 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  simp only [ops, concatenate_pair_eq_join2]
  after_results_simp
  simp only [cast_eq]
  rfl

set_option maxRecDepth 8192 in
set_option maxHeartbeats 31200000 in
/-- Every weakly fair execution of the reference's @main terminates with the result at the last stage's value of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
          = val_main_v59 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v59).trans (after_out m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.RefRun

end
-- ==== Proof.PairScore.lean ====
/-
  The function both programs compute, one output row at a time.

  A batch row r has a premise stack pre (r, ·, ·) : [256, 512] and a hypothesis stack hyp (r, ·, ·) : [384, 512].
  Their totals over the sequence axis, u = Σ_p pre (r, p, ·) and v = Σ_h hyp (r, h, ·), are laid side by side as the
  2048 features (u, v, v, u); a dense layer with a rectifier, a second dense layer with one output and the logistic
  function give the row's score:
      score = logistic ( Σ_k max ( Σ_j φ j · W1 (j, k) + b1 k , 0 ) · W2 (k, 0) + b2 0 ).
  Rows do not interact, so the score of a row is a function of that row's features only; it is stated for one feature
  vector φ, and the arrays' extents along the batch axis are free (a block of eight rows and the whole batch of 64 read
  the same definitions).
-/
import Idealize.ShloMosaic.PureOps.Ideal
import Idealize.ShloMosaic.Lib.ValueIdx

noncomputable section

namespace Cert.PairScore

open Idealize.ShloMosaic Idealize.ShloMosaic.ValueIdx

/-- Four vectors of 512 entries laid side by side as one of 2048. -/
def bands4 (u0 u1 u2 u3 : Fin 512 → EReal) (j : Fin 2048) : EReal :=
  if h0 : j.val < 512 then u0 ⟨j.val, h0⟩
  else if h1 : j.val < 1024 then u1 ⟨j.val - 512, by omega⟩
  else if h2 : j.val < 1536 then u2 ⟨j.val - 1024, by omega⟩
  else u3 ⟨j.val - 1536, by omega⟩

theorem bands4_congr {u0 u1 u2 u3 w0 w1 w2 w3 : Fin 512 → EReal} (e0 : u0 = w0) (e1 : u1 = w1) (e2 : u2 = w2)
    (e3 : u3 = w3) : bands4 u0 u1 u2 u3 = bands4 w0 w1 w2 w3 := by rw [e0, e1, e2, e3]

/-- The total of row r of a [B, L, 512] stack over its sequence axis, entry by entry. -/
def seqTotal {B L : ℕ} (x : (⟨3, ![B, L, 512]⟩ : Shape).Idx → EReal) (r : Fin B) (d : Fin 512) : EReal :=
  ∑ p : Fin L, x (ix3 r p d)

/-- The hidden layer's unit k for the feature vector φ: the rectified affine map. -/
def hiddenRow (φ : Fin 2048 → EReal) (W1 : (⟨2, ![2048, 512]⟩ : Shape).Idx → EReal)
    (b1 : (⟨1, ![512]⟩ : Shape).Idx → EReal) (k : Fin 512) : EReal :=
  max ((∑ j : Fin 2048, φ j * W1 (ix2 j k)) + b1 (ix1 k)) (Ideal.ofBits .f32 0x00000000#32)

/-- The score of the feature vector φ. -/
def scoreRow (φ : Fin 2048 → EReal) (W1 : (⟨2, ![2048, 512]⟩ : Shape).Idx → EReal)
    (b1 : (⟨1, ![512]⟩ : Shape).Idx → EReal) (W2 : (⟨2, ![512, 1]⟩ : Shape).Idx → EReal)
    (b2 : (⟨1, ![1]⟩ : Shape).Idx → EReal) : EReal :=
  Ideal.logistic ((∑ k : Fin 512, hiddenRow φ W1 b1 k * W2 (ix2 k 0)) + b2 (ix1 0))

/-- The features of row r: premise total, hypothesis total, hypothesis total, premise total. -/
def features {B LP LH : ℕ} (pre : (⟨3, ![B, LP, 512]⟩ : Shape).Idx → EReal)
    (hyp : (⟨3, ![B, LH, 512]⟩ : Shape).Idx → EReal) (r : Fin B) : Fin 2048 → EReal :=
  bands4 (seqTotal pre r) (seqTotal hyp r) (seqTotal hyp r) (seqTotal pre r)

/-- THE RESULT as one function of the gathered stacks and the layer's parameters: entry (r, 0) is row r's score. -/
def scores (pre : (⟨3, ![64, 256, 512]⟩ : Shape).Idx → EReal) (hyp : (⟨3, ![64, 384, 512]⟩ : Shape).Idx → EReal)
    (W1 : (⟨2, ![2048, 512]⟩ : Shape).Idx → EReal) (b1 : (⟨1, ![512]⟩ : Shape).Idx → EReal)
    (W2 : (⟨2, ![512, 1]⟩ : Shape).Idx → EReal) (b2 : (⟨1, ![1]⟩ : Shape).Idx → EReal) :
    (⟨2, ![64, 1]⟩ : Shape).Idx → EReal :=
  fun i => scoreRow (features pre hyp (i 0)) W1 b1 W2 b2

end Cert.PairScore

end
-- ==== Proof.LibWords.lean ====
/-
  The five 32-bit patterns the two programs spell, as the extended reals they denote: +0.0 is 0, 2.0 is the
  real 2, the all-ones exponent with a zero significand is +∞, 32768.0 = 2¹⁵ is the real 32768, and 1.0 is 1.
  A normal pattern with exponent field E and significand field T denotes (2²³ + T) · 2^(E − 127 − 23).
-/
import Idealize.ShloMosaic.PureOps.Ideal

noncomputable section

namespace Cert.Chamfer.Words

open Idealize.ShloMosaic

/-- +0.0 denotes 0. -/
theorem ofBits_zero : Ideal.ofBits .f32 0x00000000#32 = 0 := by
  simp [Ideal.ofBits, Ideal.ieee]

/-- 2.0: exponent field 128, significand field 0, so 2²³ · 2^(128 − 150) = 2. -/
theorem ofBits_two : Ideal.ofBits .f32 0x40000000#32 = ((2 : ℝ) : EReal) := by
  simp [Ideal.ofBits, Ideal.ieee, -EReal.coe_mul]; norm_num

/-- The all-ones exponent with a zero significand and a clear sign bit denotes +∞. -/
theorem ofBits_top : Ideal.ofBits .f32 0x7F800000#32 = ⊤ := by
  simp [Ideal.ofBits, Ideal.ieee]

/-- 32768.0: exponent field 142, significand field 0, so 2²³ · 2^(142 − 150) = 2¹⁵. -/
theorem ofBits_32768 : Ideal.ofBits .f32 0x47000000#32 = ((32768 : ℝ) : EReal) := by
  simp [Ideal.ofBits, Ideal.ieee, -EReal.coe_mul]; norm_num

/-- 1.0: exponent field 127, significand field 0, so 2²³ · 2^(127 − 150) = 1. -/
theorem ofBits_one : Ideal.ofBits .f32 0x3F800000#32 = 1 := by
  simp [Ideal.ofBits, Ideal.ieee, -EReal.coe_mul]; norm_num

end Cert.Chamfer.Words

end
-- ==== Proof.RefTail.lean ====
/-
  The reference's last fifteen stages, read at a row: the two dense layers and the logistic function.

  The reference forms its 2048 features per batch row (stage %44), multiplies by W1, adds b1 broadcast down the rows,
  rectifies, multiplies by W2, adds b2, and applies the logistic function spelt as 1 / (1 + exp (−z)).  Each of these
  stages reads at an index one entry (or one row and one column) of its operands, so the result at (r, 0) is the score
  (`PairScore.scoreRow`) of the feature row r; the exact instance's logistic function is by definition that quotient,
  and the two words 0.0 and 1.0 denote 0 and 1.
-/
import proofs.«106932_j84335977824546_2_alg».proof.Proof.RefRead
import proofs.«106932_j84335977824546_2_alg».proof.Proof.PairScore
import proofs.«106932_j84335977824546_2_alg».proof.Proof.LibWords

noncomputable section

namespace Cert.ReferenceIdeal.RefTail

open Cert.ReferenceIdeal Cert.ReferenceIdeal.Gen Idealize.ShloMosaic Idealize.ShloMosaic.ValueIdx
open Cert.ReferenceIdeal.ReadP Cert.PairScore

/-- Hidden unit k of row r: the rectified affine map of the feature row. -/
theorem hidden_apply (x0 : (⟨S64x256, .i32⟩ : BufTy).Contents (Elt Ideal)) (x1 : (⟨S64x384, .i32⟩ : BufTy).Contents (Elt Ideal))
    (x4 : (⟨S50000x512, .f32⟩ : BufTy).Contents (Elt Ideal))
    (x5 : (⟨S2048x512, .f32⟩ : BufTy).Contents (Elt Ideal)) (x6 : (⟨S512, .f32⟩ : BufTy).Contents (Elt Ideal))
    (r : Fin 64) (k : Fin 512) :
    val_main_v49 (F := Ideal) x0 x1 x4 x5 x6 (ix2 r k)
      = hiddenRow (fun j => val_main_v44 (F := Ideal) x0 x1 x4 (ix2 r j)) x5 x6 k := by
  have el : ∀ j : Fin 2048, lidx_main_v45 (ix2 r k) j = ix2 r j := fun j =>
    funext fun a => Fin.ext (by match a with | ⟨0, _⟩ => rfl | ⟨1, _⟩ => rfl)
  have er : ∀ j : Fin 2048, ridx_main_v45 (ix2 r k) j = ix2 j k := fun j =>
    funext fun a => Fin.ext (by match a with | ⟨0, _⟩ => rfl | ⟨1, _⟩ => rfl)
  have eb : idx_main_v46 (idx_main_v47 (ix2 r k)) = ix1 k :=
    funext fun a => Fin.ext (by match a with | ⟨0, _⟩ => rfl)
  rw [val_main_v49_apply, val_main_call1_v0_apply, val_main_call1_cst_apply, val_main_v48_apply, val_main_v47_apply,
    val_main_v46_apply, val_main_v45_apply]
  simp only [el, er, eb]
  rfl

/-- THE RESULT AT ROW r: the score of the feature row. -/
theorem out_apply (x0 : (⟨S64x256, .i32⟩ : BufTy).Contents (Elt Ideal)) (x1 : (⟨S64x384, .i32⟩ : BufTy).Contents (Elt Ideal))
    (x4 : (⟨S50000x512, .f32⟩ : BufTy).Contents (Elt Ideal)) (x5 : (⟨S2048x512, .f32⟩ : BufTy).Contents (Elt Ideal))
    (x6 : (⟨S512, .f32⟩ : BufTy).Contents (Elt Ideal)) (x7 : (⟨S512x1, .f32⟩ : BufTy).Contents (Elt Ideal))
    (x8 : (⟨S1, .f32⟩ : BufTy).Contents (Elt Ideal)) (r : Fin 64) :
    val_main_v59 (F := Ideal) x0 x1 x4 x5 x6 x7 x8 (ix2 r 0)
      = scoreRow (fun j => val_main_v44 (F := Ideal) x0 x1 x4 (ix2 r j)) x5 x6 x7 x8 := by
  have el : ∀ k : Fin 512, lidx_main_v50 (ix2 r (0 : Fin 1)) k = ix2 r k := fun k =>
    funext fun a => Fin.ext (by match a with | ⟨0, _⟩ => rfl | ⟨1, _⟩ => rfl)
  have er : ∀ k : Fin 512, ridx_main_v50 (ix2 r (0 : Fin 1)) k = ix2 k 0 := fun k =>
    funext fun a => Fin.ext (by match a with | ⟨0, _⟩ => rfl | ⟨1, _⟩ => rfl)
  have eb : idx_main_v51 (idx_main_v52 (ix2 r (0 : Fin 1))) = ix1 0 :=
    funext fun a => Fin.ext (by match a with | ⟨0, _⟩ => rfl)
  rw [val_main_v59_apply, val_main_v58_apply, val_main_cst_11_apply, val_main_v57_apply, val_main_v56_apply,
    val_main_cst_10_apply, val_main_v55_apply, val_main_v54_apply, val_main_v53_apply, val_main_v52_apply,
    val_main_v51_apply, val_main_v50_apply]
  simp only [el, er, eb, hidden_apply, Ideal.hostDivf_def, Ideal.ofBits_def, Ideal.addf_def, Ideal.hostUnary_exp_def,
    Ideal.hostNegf_def, Ideal.negf_def, Cert.Chamfer.Words.ofBits_one]
  rfl

end Cert.ReferenceIdeal.RefTail

end
-- ==== Proof.RefBands.lean ====
/-
  The reference's 2048 features of a batch row, as four bands.

  The reference joins the premise stack with the attended premise stack along the last axis ([64, 256, 1024]), totals
  over the sequence axis ([64, 1024]), does the same for the hypothesis side, and joins the two totals ([64, 2048]).
  A join of two arrays read at an index is the first piece where the joined coordinate is below the first piece's
  extent and the second piece, that extent less, otherwise; a host sum read at an index is its initial value plus
  the finite sum over the reduced coordinate.  So feature j of row r is, band by band, the zero word's value plus the
  total over the sequence of: the premise stack, the attended premise stack, the hypothesis stack, the attended
  hypothesis stack.
-/
import proofs.«106932_j84335977824546_2_alg».proof.Proof.RefRead
import proofs.«106932_j84335977824546_2_alg».proof.Proof.PairScore
import Idealize.ShloMosaic.Lib.Pipeline.Value

noncomputable section

namespace Cert.ReferenceIdeal.RefBands

open Cert.ReferenceIdeal Cert.ReferenceIdeal.Gen Idealize.ShloMosaic Idealize.ShloMosaic.ValueIdx
open Cert.ReferenceIdeal.ReadP Cert.PairScore

/-- Two [64, L, 512] arrays joined along the last axis, at (r, p, j). -/
theorem join_last {α : Type} {L : ℕ} (a b : (⟨3, ![64, L, 512]⟩ : Shape).Idx → α)
    (h : Shape.Concatenates [⟨3, ![64, L, 512]⟩, ⟨3, ![64, L, 512]⟩] ⟨3, ![64, L, 1024]⟩ 2) (r : Fin 64) (p : Fin L)
    (j : Fin 1024) :
    concatenate ⟨3, ![64, L, 1024]⟩ 2 [⟨⟨3, ![64, L, 512]⟩, a⟩, ⟨⟨3, ![64, L, 512]⟩, b⟩] h (ix3 r p j)
      = if hj : j.val < 512 then a (ix3 r p ⟨j.val, hj⟩) else b (ix3 r p ⟨j.val - 512, by omega⟩) := by
  split_ifs with hj
  · exact concatenate_pair_apply_left 2 a b h (ix3 r p j) rfl (ix3 r p ⟨j.val, hj⟩)
      (fun c => by match c with | ⟨0, _⟩ => rfl | ⟨1, _⟩ => rfl | ⟨2, _⟩ => rfl)
  · exact concatenate_pair_apply_right 2 a b h (ix3 r p j) rfl rfl (ix3 r p ⟨j.val - 512, by omega⟩)
      (fun c hc => by match c with | ⟨0, _⟩ => rfl | ⟨1, _⟩ => rfl | ⟨2, _⟩ => exact absurd rfl hc)
      (by show j.val - 512 + 512 = j.val; omega)

/-- Two [64, 1024] arrays joined along the last axis, at (r, j). -/
theorem join_cols {α : Type} (a b : (⟨2, ![64, 1024]⟩ : Shape).Idx → α)
    (h : Shape.Concatenates [⟨2, ![64, 1024]⟩, ⟨2, ![64, 1024]⟩] ⟨2, ![64, 2048]⟩ 1) (r : Fin 64) (j : Fin 2048) :
    concatenate ⟨2, ![64, 2048]⟩ 1 [⟨⟨2, ![64, 1024]⟩, a⟩, ⟨⟨2, ![64, 1024]⟩, b⟩] h (ix2 r j)
      = if hj : j.val < 1024 then a (ix2 r ⟨j.val, hj⟩) else b (ix2 r ⟨j.val - 1024, by omega⟩) := by
  split_ifs with hj
  · exact concatenate_pair_apply_left 1 a b h (ix2 r j) rfl (ix2 r ⟨j.val, hj⟩)
      (fun c => by match c with | ⟨0, _⟩ => rfl | ⟨1, _⟩ => rfl)
  · exact concatenate_pair_apply_right 1 a b h (ix2 r j) rfl rfl (ix2 r ⟨j.val - 1024, by omega⟩)
      (fun c hc => by match c with | ⟨0, _⟩ => rfl | ⟨1, _⟩ => exact absurd rfl hc)
      (by show j.val - 1024 + 1024 = j.val; omega)

/-- The premise side's totals at (r, j): the stack's total in the first 512 columns, the attended stack's in the rest. -/
theorem preTotals_apply (x0 : (⟨S64x256, .i32⟩ : BufTy).Contents (Elt Ideal)) (x1 : (⟨S64x384, .i32⟩ : BufTy).Contents (Elt Ideal))
    (x4 : (⟨S50000x512, .f32⟩ : BufTy).Contents (Elt Ideal)) (r : Fin 64) (j : Fin 1024) :
    val_main_v42 (F := Ideal) x0 x1 x4 (ix2 r j)
      = Ideal.ofBits .f32 0x00000000#32 + ∑ p : Fin 256, (if hj : j.val < 512 then val_main_v6 (F := Ideal) x0 x4 (ix3 r p ⟨j.val, hj⟩)
          else val_main_v38 (F := Ideal) x0 x1 x4 (ix3 r p ⟨j.val - 512, by omega⟩)) := by
  have e : ∀ p : Fin 256, idx_main_v42 (ix2 r j) p = ix3 r p j := fun p =>
    funext fun a => Fin.ext (by match a with | ⟨0, _⟩ => rfl | ⟨1, _⟩ => rfl | ⟨2, _⟩ => rfl)
  rw [val_main_v42_apply, val_main_cst_8_apply]
  refine congrArg (_ + ·) (Finset.sum_congr rfl fun p _ => ?_)
  rw [e p]
  unfold val_main_v40
  exact join_last _ _ _ r p j

/-- The hypothesis side's totals at (r, j). -/
theorem hypTotals_apply (x0 : (⟨S64x256, .i32⟩ : BufTy).Contents (Elt Ideal)) (x1 : (⟨S64x384, .i32⟩ : BufTy).Contents (Elt Ideal))
    (x4 : (⟨S50000x512, .f32⟩ : BufTy).Contents (Elt Ideal)) (r : Fin 64) (j : Fin 1024) :
    val_main_v43 (F := Ideal) x0 x1 x4 (ix2 r j)
      = Ideal.ofBits .f32 0x00000000#32 + ∑ p : Fin 384, (if hj : j.val < 512 then val_main_v13 (F := Ideal) x1 x4 (ix3 r p ⟨j.val, hj⟩)
          else val_main_v39 (F := Ideal) x0 x1 x4 (ix3 r p ⟨j.val - 512, by omega⟩)) := by
  have e : ∀ p : Fin 384, idx_main_v43 (ix2 r j) p = ix3 r p j := fun p =>
    funext fun a => Fin.ext (by match a with | ⟨0, _⟩ => rfl | ⟨1, _⟩ => rfl | ⟨2, _⟩ => rfl)
  rw [val_main_v43_apply, val_main_cst_9_apply]
  refine congrArg (_ + ·) (Finset.sum_congr rfl fun p _ => ?_)
  rw [e p]
  unfold val_main_v41
  exact join_last _ _ _ r p j

/-- THE FEATURE ROW r: four bands of sequence totals. -/
theorem features_apply (x0 : (⟨S64x256, .i32⟩ : BufTy).Contents (Elt Ideal)) (x1 : (⟨S64x384, .i32⟩ : BufTy).Contents (Elt Ideal))
    (x4 : (⟨S50000x512, .f32⟩ : BufTy).Contents (Elt Ideal)) (r : Fin 64) :
    (fun j : Fin 2048 => val_main_v44 (F := Ideal) x0 x1 x4 (ix2 r j))
      = bands4 (fun d => Ideal.ofBits .f32 0x00000000#32 + ∑ p : Fin 256, val_main_v6 (F := Ideal) x0 x4 (ix3 r p d))
          (fun d => Ideal.ofBits .f32 0x00000000#32 + ∑ p : Fin 256, val_main_v38 (F := Ideal) x0 x1 x4 (ix3 r p d))
          (fun d => Ideal.ofBits .f32 0x00000000#32 + ∑ p : Fin 384, val_main_v13 (F := Ideal) x1 x4 (ix3 r p d))
          (fun d => Ideal.ofBits .f32 0x00000000#32 + ∑ p : Fin 384, val_main_v39 (F := Ideal) x0 x1 x4 (ix3 r p d)) := by
  funext j
  have hj := j.isLt
  unfold val_main_v44
  rw [join_cols]
  unfold bands4
  by_cases h0 : j.val < 512
  · rw [dif_pos (show j.val < 1024 by omega), dif_pos h0, preTotals_apply]
    exact congrArg (_ + ·) (Finset.sum_congr rfl fun p _ => dif_pos h0)
  · by_cases h1 : j.val < 1024
    · rw [dif_pos h1, dif_neg h0, dif_pos h1, preTotals_apply]
      exact congrArg (_ + ·) (Finset.sum_congr rfl fun p _ => dif_neg h0)
    · by_cases h2 : j.val < 1536
      · rw [dif_neg h1, dif_neg h0, dif_neg h1, dif_pos h2, hypTotals_apply]
        exact congrArg (_ + ·) (Finset.sum_congr rfl fun p _ => dif_pos (show j.val - 1024 < 512 by omega))
      · rw [dif_neg h1, dif_neg h0, dif_neg h1, dif_neg h2, hypTotals_apply]
        refine congrArg (_ + ·) (Finset.sum_congr rfl fun p _ => ?_)
        rw [dif_neg (show ¬ j.val - 1024 < 512 by omega)]
        exact congrArg _ (congrArg (ix3 r p) (Fin.ext (by show j.val - 1024 - 512 = j.val - 1536; omega)))

end Cert.ReferenceIdeal.RefBands

end
-- ==== Proof.LibAttentionSums.lean ====
/-
  Softmax weights along an axis sum to one, so rows mixed by them and then added up along that axis give the plain total
  of the rows that were mixed.

  Let a : N × M → ℝ be scores, c : M → ℝ any real shift per column (a softmax subtracts the column's maximum, but the
  law does not care which real it is), and w (n, m) = exp (a (n, m) − c m) / Σ_n' exp (a (n', m) − c m) the weights
  normalised over n.  Every exponential is positive, so each column's normaliser is a positive real, the weights are
  real, and Σ_n w (n, m) = 1.  Hence for any real row y : M → ℝ
      Σ_n Σ_m w (n, m) · y m  =  Σ_m (Σ_n w (n, m)) · y m  =  Σ_m y m.
  The exchange of the two sums and the factoring of y m out of the inner one are laws of ℝ: on the extended reals they
  need every term real, which is where the finiteness of the inputs is used.  The extended-real statement below takes
  the operations as the exact instance spells them (its exponential and its quotient) and real scores, shifts and rows.
-/
import Idealize.ShloMosaic.PureOps.Ideal

noncomputable section

namespace Cert.AttentionSums

open Idealize.ShloMosaic

/-- An extended real that is a real number. -/
def IsReal (x : EReal) : Prop := ∃ r : ℝ, x = (r : EReal)

theorem isReal_coe (r : ℝ) : IsReal (r : EReal) := ⟨r, rfl⟩

/-- A finite sum of coerced reals is the coerced sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- An extended real strictly between the two infinities is a real. -/
theorem isReal_of_lt {x : EReal} (h1 : ⊥ < x) (h2 : x < ⊤) : IsReal x :=
  ⟨x.toReal, (EReal.coe_toReal h2.ne h1.ne').symm⟩

theorem IsReal.bot_lt {x : EReal} (h : IsReal x) : ⊥ < x := by obtain ⟨r, rfl⟩ := h; exact EReal.bot_lt_coe r
theorem IsReal.lt_top {x : EReal} (h : IsReal x) : x < ⊤ := by obtain ⟨r, rfl⟩ := h; exact EReal.coe_lt_top r

/-- The running maximum, started at −∞, of finitely many reals over a non-empty range is a real: it is at least one of
    them and below +∞ like all of them. -/
theorem isReal_fold_max {ι : Type} (s : Finset ι) (hs : s.Nonempty) (f : ι → EReal) (h : ∀ i ∈ s, IsReal (f i)) :
    IsReal (s.fold max ⊥ f) := by
  obtain ⟨i, hi⟩ := hs
  refine isReal_of_lt ?_ ?_
  · exact (Finset.lt_fold_max _).2 (Or.inr ⟨i, hi, (h i hi).bot_lt⟩)
  · exact (Finset.fold_max_lt _).2 ⟨bot_lt_top, fun j hj => (h j hj).lt_top⟩

/-- The law on the reals. -/
theorem real_collapse {N M : Type} [Fintype N] [Fintype M] [Nonempty N] (a : N → M → ℝ) (c : M → ℝ) (y : M → ℝ) :
    ∑ n, ∑ m, Real.exp (a n m - c m) * (1 / ∑ n', Real.exp (a n' m - c m)) * y m = ∑ m, y m := by
  rw [Finset.sum_comm]
  refine Finset.sum_congr rfl fun m _ => ?_
  have hS : (∑ n', Real.exp (a n' m - c m)) ≠ 0 :=
    (Finset.sum_pos (fun n _ => Real.exp_pos _) Finset.univ_nonempty).ne'
  rw [← Finset.sum_mul, ← Finset.sum_mul, mul_one_div, div_self hS, one_mul]

/-- THE LAW on the extended reals, in the exact instance's operations: for real scores a, real shifts c and a real row y,
    the rows mixed by the weights normalised over n, totalled over n, are the row's plain total. -/
theorem collapse {N M : Type} [Fintype N] [Fintype M] [Nonempty N] (a : N → M → EReal) (c : M → EReal) (y : M → EReal)
    (ha : ∀ n m, IsReal (a n m)) (hc : ∀ m, IsReal (c m)) (hy : ∀ m, IsReal (y m)) :
    ∑ n, ∑ m, Ideal.div (Ideal.exp (a n m - c m)) (∑ n', Ideal.exp (a n' m - c m)) * y m = ∑ m, y m := by
  choose a' ha using ha
  choose c' hc using hc
  choose y' hy using hy
  have he : ∀ n m, Ideal.exp (a n m - c m) = ((Real.exp (a' n m - c' m) : ℝ) : EReal) := fun n m => by
    rw [ha, hc, ← EReal.coe_sub]; rfl
  have hS : ∀ m, (∑ n', Real.exp (a' n' m - c' m)) ≠ 0 := fun m =>
    (Finset.sum_pos (fun n _ => Real.exp_pos _) Finset.univ_nonempty).ne'
  have hterm : ∀ n m, Ideal.div (Ideal.exp (a n m - c m)) (∑ n', Ideal.exp (a n' m - c m)) * y m
      = ((Real.exp (a' n m - c' m) * (1 / ∑ n', Real.exp (a' n' m - c' m)) * y' m : ℝ) : EReal) := fun n m => by
    rw [show (∑ n', Ideal.exp (a n' m - c m)) = ((∑ n', Real.exp (a' n' m - c' m) : ℝ) : EReal) from by
      rw [← coe_sum]; exact Finset.sum_congr rfl fun n' _ => he n' m]
    rw [Ideal.div_coe (hS m), he, hy, ← EReal.coe_mul, ← EReal.coe_mul]
  rw [show (∑ m, y m) = ((∑ m, y' m : ℝ) : EReal) from by
    rw [← coe_sum]; exact Finset.sum_congr rfl fun m _ => hy m]
  simp only [hterm, coe_sum]
  exact congrArg _ (real_collapse a' c' y')

end Cert.AttentionSums

end
-- ==== Proof.RefAttention.lean ====
/-
  The reference's attention, totalled over the sequence, collapses to plain totals.

  For a batch row r let a (p, h) = max (Σ_k pre (r, p, k) · hyp (r, h, k), 0) be the rectified scores.  The reference
  normalises exp (a − column maximum) over p (weights w₁, summing to one over p for every h) and exp (a − row maximum)
  over h (weights w₂, summing to one over h for every p), mixes
      preAtt (p, d) = Σ_h w₁ (p, h) · hyp (r, h, d),      hypAtt (h, d) = Σ_p w₂ (p, h) · pre (r, p, d),
  and totals both over the sequence.  With every embedding entry real, the scores, the maxima (a running maximum from
  −∞ over a non-empty axis) and the two stacks are real, so by the law of `LibAttentionSums`
      Σ_p preAtt (p, d) = Σ_h hyp (r, h, d),        Σ_h hypAtt (h, d) = Σ_p pre (r, p, d).
  A gathered entry is an entry of the table, whichever row the index selects, so the stacks are real as soon as the
  table is; the host sums' initial value is the zero word, which denotes 0.
-/
import proofs.«106932_j84335977824546_2_alg».proof.Proof.RefRead
import proofs.«106932_j84335977824546_2_alg».proof.Proof.LibAttentionSums
import proofs.«106932_j84335977824546_2_alg».proof.Proof.LibWords
import Idealize.ShloMosaic.PureOps.Reduce
import Idealize.ShloMosaic.PureOps.Ideal.Laws

noncomputable section

namespace Cert.ReferenceIdeal.RefAttention

open Cert.ReferenceIdeal Cert.ReferenceIdeal.Gen Idealize.ShloMosaic Idealize.ShloMosaic.ValueIdx
open Cert.ReferenceIdeal.ReadP Cert.AttentionSums

/-- The word of −∞ denotes −∞. -/
theorem ofBits_negInf : Ideal.ofBits .f32 0xFF800000#32 = ⊥ := by
  simp [Ideal.ofBits, Ideal.ieee]

theorem isReal_zeroWord : IsReal (Ideal.ofBits .f32 0x00000000#32) := by
  rw [Cert.Chamfer.Words.ofBits_zero]; exact ⟨0, rfl⟩

section
variable (x0 : (⟨S64x256, .i32⟩ : BufTy).Contents (Elt Ideal)) (x1 : (⟨S64x384, .i32⟩ : BufTy).Contents (Elt Ideal))
    (x4 : (⟨S50000x512, .f32⟩ : BufTy).Contents (Elt Ideal)) (hx4 : ∀ i, IsReal (x4 i))
include hx4

/-- A gathered premise entry is an entry of the table. -/
theorem pre_real (i : S64x256x512.Idx) : IsReal (val_main_v6 (F := Ideal) x0 x4 i) := by
  unfold val_main_v6 Host.gather
  exact hx4 _

/-- A gathered hypothesis entry is an entry of the table. -/
theorem hyp_real (i : S64x384x512.Idx) : IsReal (val_main_v13 (F := Ideal) x1 x4 i) := by
  unfold val_main_v13 Host.gather
  exact hx4 _

/-- The rectified scores are real. -/
theorem score_real (i : S64x256x384.Idx) : IsReal (val_main_v15 (F := Ideal) x0 x1 x4 i) := by
  rw [val_main_v15_apply, val_main_call0_v0_apply, val_main_call0_cst_apply, val_main_v14_apply]
  exact IsReal.max (IsReal.sum _ _ fun k _ => (pre_real x0 x4 hx4 _).mul (hyp_real x1 x4 hx4 _)) isReal_zeroWord

/-- The column maxima (over the premise positions) are real. -/
theorem colMax_real (r : Fin 64) (h : Fin 384) : IsReal (val_main_v18 (F := Ideal) x0 x1 x4 (ix2 r h)) := by
  rw [val_main_v18_apply, val_main_v17_apply, val_main_cst_3_apply]
  unfold val_main_v16
  rw [Host.reduce_eq_fold_single FloatOps.maximumf _ _ _ (by decide : S64x256x384.Reduces [1] S64x384) _]
  show IsReal (max (Ideal.ofBits .f32 0xFF800000#32) (Finset.univ.fold max (Ideal.ofBits .f32 0xFF800000#32) _))
  rw [ofBits_negInf, max_eq_right bot_le]
  exact isReal_fold_max _ ⟨⟨0, (by decide : 0 < S64x256x384.size 1)⟩, Finset.mem_univ _⟩ _
    fun k _ => score_real x0 x1 x4 hx4 _

/-- The row maxima (over the hypothesis positions) are real. -/
theorem rowMax_real (r : Fin 64) (p : Fin 256) : IsReal (val_main_v29 (F := Ideal) x0 x1 x4 (ix2 r p)) := by
  rw [val_main_v29_apply, val_main_v28_apply, val_main_cst_6_apply]
  unfold val_main_v27
  rw [Host.reduce_eq_fold_single FloatOps.maximumf _ _ _ (by decide : S64x256x384.Reduces [2] S64x256) _]
  show IsReal (max (Ideal.ofBits .f32 0xFF800000#32) (Finset.univ.fold max (Ideal.ofBits .f32 0xFF800000#32) _))
  rw [ofBits_negInf, max_eq_right bot_le]
  exact isReal_fold_max _ ⟨⟨0, (by decide : 0 < S64x256x384.size 2)⟩, Finset.mem_univ _⟩ _
    fun k _ => score_real x0 x1 x4 hx4 _

omit hx4 in
/-- The weights normalised over the premise positions, at (r, p, h). -/
theorem colWeight_apply (r : Fin 64) (p : Fin 256) (h : Fin 384) :
    val_main_v26 (F := Ideal) x0 x1 x4 (ix3 r p h)
      = Ideal.div (Ideal.exp (val_main_v15 (F := Ideal) x0 x1 x4 (ix3 r p h) - val_main_v18 (F := Ideal) x0 x1 x4 (ix2 r h)))
          (Ideal.ofBits .f32 0x00000000#32 + ∑ p' : Fin 256, Ideal.exp (val_main_v15 (F := Ideal) x0 x1 x4 (ix3 r p' h) - val_main_v18 (F := Ideal) x0 x1 x4 (ix2 r h))) := by
  have e22 : ∀ p' : Fin 256, val_main_v22 (F := Ideal) x0 x1 x4 (ix3 r p' h)
      = Ideal.exp (val_main_v15 (F := Ideal) x0 x1 x4 (ix3 r p' h) - val_main_v18 (F := Ideal) x0 x1 x4 (ix2 r h)) := fun p' => by
    have e : idx_main_v19 (idx_main_v20 (ix3 r p' h)) = ix2 r h :=
      funext fun a => Fin.ext (by match a with | ⟨0, _⟩ => rfl | ⟨1, _⟩ => rfl)
    rw [val_main_v22_apply, val_main_v21_apply, val_main_v20_apply, val_main_v19_apply, e]
    rfl
  have e25 : idx_main_v24 (idx_main_v25 (ix3 r p h)) = ix2 r h :=
    funext fun a => Fin.ext (by match a with | ⟨0, _⟩ => rfl | ⟨1, _⟩ => rfl)
  have e23 : ∀ p' : Fin 256, idx_main_v23 (ix2 r h) p' = ix3 r p' h := fun p' =>
    funext fun a => Fin.ext (by match a with | ⟨0, _⟩ => rfl | ⟨1, _⟩ => rfl | ⟨2, _⟩ => rfl)
  rw [val_main_v26_apply, val_main_v25_apply, val_main_v24_apply, e25, val_main_v23_apply, val_main_cst_4_apply]
  simp only [e23, e22]
  rfl

omit hx4 in
/-- The weights normalised over the hypothesis positions, at (r, p, h). -/
theorem rowWeight_apply (r : Fin 64) (p : Fin 256) (h : Fin 384) :
    val_main_v37 (F := Ideal) x0 x1 x4 (ix3 r p h)
      = Ideal.div (Ideal.exp (val_main_v15 (F := Ideal) x0 x1 x4 (ix3 r p h) - val_main_v29 (F := Ideal) x0 x1 x4 (ix2 r p)))
          (Ideal.ofBits .f32 0x00000000#32 + ∑ h' : Fin 384, Ideal.exp (val_main_v15 (F := Ideal) x0 x1 x4 (ix3 r p h') - val_main_v29 (F := Ideal) x0 x1 x4 (ix2 r p))) := by
  have e33 : ∀ h' : Fin 384, val_main_v33 (F := Ideal) x0 x1 x4 (ix3 r p h')
      = Ideal.exp (val_main_v15 (F := Ideal) x0 x1 x4 (ix3 r p h') - val_main_v29 (F := Ideal) x0 x1 x4 (ix2 r p)) := fun h' => by
    have e : idx_main_v30 (idx_main_v31 (ix3 r p h')) = ix2 r p :=
      funext fun a => Fin.ext (by match a with | ⟨0, _⟩ => rfl | ⟨1, _⟩ => rfl)
    rw [val_main_v33_apply, val_main_v32_apply, val_main_v31_apply, val_main_v30_apply, e]
    rfl
  have e36 : idx_main_v35 (idx_main_v36 (ix3 r p h)) = ix2 r p :=
    funext fun a => Fin.ext (by match a with | ⟨0, _⟩ => rfl | ⟨1, _⟩ => rfl)
  have e34 : ∀ h' : Fin 384, idx_main_v34 (ix2 r p) h' = ix3 r p h' := fun h' =>
    funext fun a => Fin.ext (by match a with | ⟨0, _⟩ => rfl | ⟨1, _⟩ => rfl | ⟨2, _⟩ => rfl)
  rw [val_main_v37_apply, val_main_v36_apply, val_main_v35_apply, e36, val_main_v34_apply, val_main_cst_7_apply]
  simp only [e34, e33]
  rfl

/-- THE ATTENDED PREMISE STACK, TOTALLED over the premise positions, is the hypothesis stack's plain total. -/
theorem attendedPre_total (r : Fin 64) (d : Fin 512) :
    Ideal.ofBits .f32 0x00000000#32 + ∑ p : Fin 256, val_main_v38 (F := Ideal) x0 x1 x4 (ix3 r p d)
      = ∑ h : Fin 384, val_main_v13 (F := Ideal) x1 x4 (ix3 r h d) := by
  have el : ∀ (p : Fin 256) (h : Fin 384), lidx_main_v38 (ix3 r p d) h = ix3 r p h := fun p h =>
    funext fun a => Fin.ext (by match a with | ⟨0, _⟩ => rfl | ⟨1, _⟩ => rfl | ⟨2, _⟩ => rfl)
  have er : ∀ (p : Fin 256) (h : Fin 384), ridx_main_v38 (ix3 r p d) h = ix3 r h d := fun p h =>
    funext fun a => Fin.ext (by match a with | ⟨0, _⟩ => rfl | ⟨1, _⟩ => rfl | ⟨2, _⟩ => rfl)
  have hmix : ∀ p : Fin 256, val_main_v38 (F := Ideal) x0 x1 x4 (ix3 r p d)
      = ∑ h : Fin 384, Ideal.div (Ideal.exp (val_main_v15 (F := Ideal) x0 x1 x4 (ix3 r p h) - val_main_v18 (F := Ideal) x0 x1 x4 (ix2 r h)))
          (∑ p' : Fin 256, Ideal.exp (val_main_v15 (F := Ideal) x0 x1 x4 (ix3 r p' h) - val_main_v18 (F := Ideal) x0 x1 x4 (ix2 r h)))
          * val_main_v13 (F := Ideal) x1 x4 (ix3 r h d) := fun p => by
    rw [val_main_v38_apply]
    refine Finset.sum_congr rfl fun h _ => ?_
    rw [el, er, colWeight_apply, Cert.Chamfer.Words.ofBits_zero, zero_add]
  rw [Cert.Chamfer.Words.ofBits_zero, zero_add]
  simp only [hmix]
  exact collapse (fun (p : Fin 256) (h : Fin 384) => val_main_v15 (F := Ideal) x0 x1 x4 (ix3 r p h))
    (fun h => val_main_v18 (F := Ideal) x0 x1 x4 (ix2 r h)) (fun h => val_main_v13 (F := Ideal) x1 x4 (ix3 r h d))
    (fun p h => score_real x0 x1 x4 hx4 _) (fun h => colMax_real x0 x1 x4 hx4 r h) (fun h => hyp_real x1 x4 hx4 _)

/-- THE ATTENDED HYPOTHESIS STACK, TOTALLED over the hypothesis positions, is the premise stack's plain total. -/
theorem attendedHyp_total (r : Fin 64) (d : Fin 512) :
    Ideal.ofBits .f32 0x00000000#32 + ∑ h : Fin 384, val_main_v39 (F := Ideal) x0 x1 x4 (ix3 r h d)
      = ∑ p : Fin 256, val_main_v6 (F := Ideal) x0 x4 (ix3 r p d) := by
  have el : ∀ (h : Fin 384) (p : Fin 256), lidx_main_v39 (ix3 r h d) p = ix3 r p h := fun h p =>
    funext fun a => Fin.ext (by match a with | ⟨0, _⟩ => rfl | ⟨1, _⟩ => rfl | ⟨2, _⟩ => rfl)
  have er : ∀ (h : Fin 384) (p : Fin 256), ridx_main_v39 (ix3 r h d) p = ix3 r p d := fun h p =>
    funext fun a => Fin.ext (by match a with | ⟨0, _⟩ => rfl | ⟨1, _⟩ => rfl | ⟨2, _⟩ => rfl)
  have hmix : ∀ h : Fin 384, val_main_v39 (F := Ideal) x0 x1 x4 (ix3 r h d)
      = ∑ p : Fin 256, Ideal.div (Ideal.exp (val_main_v15 (F := Ideal) x0 x1 x4 (ix3 r p h) - val_main_v29 (F := Ideal) x0 x1 x4 (ix2 r p)))
          (∑ h' : Fin 384, Ideal.exp (val_main_v15 (F := Ideal) x0 x1 x4 (ix3 r p h') - val_main_v29 (F := Ideal) x0 x1 x4 (ix2 r p)))
          * val_main_v6 (F := Ideal) x0 x4 (ix3 r p d) := fun h => by
    rw [val_main_v39_apply]
    refine Finset.sum_congr rfl fun p _ => ?_
    rw [el, er, rowWeight_apply, Cert.Chamfer.Words.ofBits_zero, zero_add]
  rw [Cert.Chamfer.Words.ofBits_zero, zero_add]
  simp only [hmix]
  exact collapse (fun (h : Fin 384) (p : Fin 256) => val_main_v15 (F := Ideal) x0 x1 x4 (ix3 r p h))
    (fun p => val_main_v29 (F := Ideal) x0 x1 x4 (ix2 r p)) (fun p => val_main_v6 (F := Ideal) x0 x4 (ix3 r p d))
    (fun h p => score_real x0 x1 x4 hx4 _) (fun p => rowMax_real x0 x1 x4 hx4 r p) (fun p => pre_real x0 x4 hx4 _)

end

end Cert.ReferenceIdeal.RefAttention

end
-- ==== Proof.RefScores.lean ====
/-
  The reference's result is the scores of the two gathered stacks.

  Row r of the last stage is the score of the reference's feature row (`RefTail`), whose four bands are the sequence
  totals of the premise stack, the attended premise stack, the hypothesis stack and the attended hypothesis stack, each
  from the zero word (`RefBands`).  The zero word denotes 0, and with a real embedding table the attended totals are
  the other stack's plain totals (`RefAttention`): the feature row is (u, v, v, u) with u, v the two plain totals, which
  is the feature row of `PairScore.scores`.
-/
import proofs.«106932_j84335977824546_2_alg».proof.Proof.RefTail
import proofs.«106932_j84335977824546_2_alg».proof.Proof.RefBands
import proofs.«106932_j84335977824546_2_alg».proof.Proof.RefAttention

noncomputable section

namespace Cert.ReferenceIdeal.RefScores

open Cert.ReferenceIdeal Cert.ReferenceIdeal.Gen Idealize.ShloMosaic Idealize.ShloMosaic.ValueIdx
open Cert.ReferenceIdeal.ReadP Cert.AttentionSums Cert.PairScore

/-- THE REFERENCE'S RESULT, for a real embedding table. -/
theorem out_eq (x0 : (⟨S64x256, .i32⟩ : BufTy).Contents (Elt Ideal)) (x1 : (⟨S64x384, .i32⟩ : BufTy).Contents (Elt Ideal))
    (x4 : (⟨S50000x512, .f32⟩ : BufTy).Contents (Elt Ideal)) (x5 : (⟨S2048x512, .f32⟩ : BufTy).Contents (Elt Ideal))
    (x6 : (⟨S512, .f32⟩ : BufTy).Contents (Elt Ideal)) (x7 : (⟨S512x1, .f32⟩ : BufTy).Contents (Elt Ideal))
    (x8 : (⟨S1, .f32⟩ : BufTy).Contents (Elt Ideal)) (hx4 : ∀ i, IsReal (x4 i)) :
    val_main_v59 (F := Ideal) x0 x1 x4 x5 x6 x7 x8
      = scores (val_main_v6 (F := Ideal) x0 x4) (val_main_v13 (F := Ideal) x1 x4) x5 x6 x7 x8 := by
  funext i
  obtain ⟨r, z, rfl⟩ : ∃ (r : Fin 64) (z : Fin 1), i = ix2 r z := ⟨i 0, i 1, eq_ix2 i⟩
  obtain rfl : z = 0 := Subsingleton.elim _ _
  rw [RefTail.out_apply, RefBands.features_apply]
  unfold scores features
  refine congrArg (fun φ => scoreRow φ x5 x6 x7 x8) (bands4_congr ?_ ?_ ?_ ?_) <;> funext d
  · unfold seqTotal; rw [Cert.Chamfer.Words.ofBits_zero, zero_add]
  · exact RefAttention.attendedPre_total x0 x1 x4 hx4 r d
  · unfold seqTotal; rw [Cert.Chamfer.Words.ofBits_zero, zero_add]
  · exact RefAttention.attendedHyp_total x0 x1 x4 hx4 r d

end Cert.ReferenceIdeal.RefScores

end
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.KernelRow.lean ====
/-
  The kernel body's stored value, row by row.

  One grid point holds eight batch rows.  The body totals the premise block [8, 256, 512] and the hypothesis block
  [8, 384, 512] over their middle (sequence) axis, lays the two totals side by side as (u, v, v, u) : [8, 2048], and runs
  the two dense layers and the logistic function on the vector unit.  Row q of the stored [8, 1] block is therefore the
  score (`PairScore.scoreRow`) of row q's features: a lane reduction read at (q, d) is the finite sum over the
  sequence coordinate, a matrix product into the zero accumulator read at (q, k) is the row-by-column sum, a bias
  vector laid out as a row and broadcast down the eight rows reads at (q, k) the vector's entry k, and a change of float
  format is the identity at the exact values.  Nothing here needs finiteness.
-/
import proofs.«106932_j84335977824546_2_alg».proof.Proof.Gen.KernelIdeal.Skeleton
import proofs.«106932_j84335977824546_2_alg».proof.Proof.PairScore
import proofs.«106932_j84335977824546_2_alg».proof.Proof.LibMatmulPlain
import proofs.«106932_j84335977824546_2_alg».proof.Proof.LibBiasRows
import Idealize.ShloMosaic.PureOps.Ideal.Laws
import Idealize.ShloMosaic.Lib.Pipeline.Value
import Idealize.ShloMosaic.Lib.ValueIdx

noncomputable section

namespace Cert.KernelIdeal.RowValue

open Cert.KernelIdeal Cert.KernelIdeal.Gen Idealize.ShloMosaic Idealize.ShloMosaic.ValueIdx Cert.PairScore

/-- A lane reduction of a [B, L, 512] block over its middle axis from the zero accumulator, at (q, d), is the total of
    row q over the sequence coordinate. -/
theorem laneTotal {B L : ℕ} (x : FVec Ideal ⟨3, ![B, L, 512]⟩ .f32)
    (h : (⟨3, ![B, L, 512]⟩ : Shape).Reduces [1] ⟨2, ![B, 512]⟩) (hφ : FKind.Formats .f32)
    (hacc : (0x00000000#32 : BitVec 32) = FKind.add.neutral .f32 hφ) (q : Fin B) (d : Fin 512) :
    multiReduction .add [1] ⟨2, ![B, 512]⟩ x 0x00000000#32 h hφ hacc (ix2 q d) = seqTotal x q d := by
  refine (Ideal.multiReduction_add_single x _ h hφ hacc (ix2 q d)).trans ?_
  unfold seqTotal
  refine Finset.sum_congr rfl fun p _ => congrArg x ?_
  funext c; apply Fin.ext
  fin_cases c <;> rfl

/-- Four [B, 512] arrays joined along the second axis, at (q, j): the band that holds column j, at that band's own
    column. -/
theorem join4_apply {B : ℕ} (a0 a1 a2 a3 : (⟨2, ![B, 512]⟩ : Shape).Idx → EReal)
    (h : Shape.Concatenates [⟨2, ![B, 512]⟩, ⟨2, ![B, 512]⟩, ⟨2, ![B, 512]⟩, ⟨2, ![B, 512]⟩] ⟨2, ![B, 2048]⟩ 1)
    (q : Fin B) (j : Fin 2048) :
    concatenate ⟨2, ![B, 2048]⟩ 1 [⟨⟨2, ![B, 512]⟩, a0⟩, ⟨⟨2, ![B, 512]⟩, a1⟩, ⟨⟨2, ![B, 512]⟩, a2⟩, ⟨⟨2, ![B, 512]⟩, a3⟩] h (ix2 q j)
      = bands4 (fun d => a0 (ix2 q d)) (fun d => a1 (ix2 q d)) (fun d => a2 (ix2 q d)) (fun d => a3 (ix2 q d)) j := by
  have hoff : ∀ (i : (⟨2, ![B, 512]⟩ : Shape).Idx) (hq : (i 0).val = q.val) (b : Fin 2), b.cast rfl ≠ (1 : Fin 2) →
      (i b).val = ((ix2 q j : (⟨2, ![B, 2048]⟩ : Shape).Idx) (b.cast rfl)).val := fun i hq b hb => by
    match b with
    | ⟨0, _⟩ => exact hq
    | ⟨1, _⟩ => exact absurd rfl hb
  unfold bands4
  split_ifs with h0 h1 h2
  · exact concatenate_apply_piece 1 [⟨⟨2, ![B, 512]⟩, a0⟩, ⟨⟨2, ![B, 512]⟩, a1⟩, ⟨⟨2, ![B, 512]⟩, a2⟩, ⟨⟨2, ![B, 512]⟩, a3⟩] h (ix2 q j) 0 (show (0 : ℕ) < 4 by decide) _ a0 rfl rfl 0 rfl (ix2 q ⟨j.val, h0⟩)
      (hoff _ rfl) (by show 0 + j.val = j.val; omega)
  · exact concatenate_apply_piece 1 [⟨⟨2, ![B, 512]⟩, a0⟩, ⟨⟨2, ![B, 512]⟩, a1⟩, ⟨⟨2, ![B, 512]⟩, a2⟩, ⟨⟨2, ![B, 512]⟩, a3⟩] h (ix2 q j) 1 (show (1 : ℕ) < 4 by decide) _ a1 rfl rfl 512 rfl (ix2 q ⟨j.val - 512, by omega⟩)
      (hoff _ rfl) (by show 512 + (j.val - 512) = j.val; omega)
  · exact concatenate_apply_piece 1 [⟨⟨2, ![B, 512]⟩, a0⟩, ⟨⟨2, ![B, 512]⟩, a1⟩, ⟨⟨2, ![B, 512]⟩, a2⟩, ⟨⟨2, ![B, 512]⟩, a3⟩] h (ix2 q j) 2 (show (2 : ℕ) < 4 by decide) _ a2 rfl rfl 1024 rfl (ix2 q ⟨j.val - 1024, by omega⟩)
      (hoff _ rfl) (by show 1024 + (j.val - 1024) = j.val; omega)
  · exact concatenate_apply_piece 1 [⟨⟨2, ![B, 512]⟩, a0⟩, ⟨⟨2, ![B, 512]⟩, a1⟩, ⟨⟨2, ![B, 512]⟩, a2⟩, ⟨⟨2, ![B, 512]⟩, a3⟩] h (ix2 q j) 3 (show (3 : ℕ) < 4 by decide) _ a3 rfl rfl 1536 rfl (ix2 q ⟨j.val - 1536, by omega⟩)
      (hoff _ rfl) (by show 1536 + (j.val - 1536) = j.val; have := j.isLt; omega)

/-- THE STORED VALUE AT ROW q: the score of row q's features, the layer's parameters as the body loads them. -/
theorem pay_apply (x0 : Vec Ideal S8x256x512 .f32) (x1 : Vec Ideal S8x384x512 .f32) (x2 : Vec Ideal S2048x512 .bf16)
    (x3 : Vec Ideal S512 .f32) (x4 : Vec Ideal S512x1 .bf16) (x5 : Vec Ideal S1 .f32) (q : Fin 8) :
    k0_pay1 (F := Ideal) x0 x1 x2 x3 x4 x5 (ix2 q 0) = scoreRow (features x0 x1 q) x2 x3 x4 x5 := by
  unfold k0_pay1 scoreRow
  refine congrArg Ideal.logistic (congrArg₂ (· + ·) ?_ ?_)
  · -- the second product, row q against the one column
    refine (Cert.LibMatmulPlain.matmul_zero_apply none _ _ q 0).trans
      (Finset.sum_congr rfl fun k _ => congrArg₂ (· * ·) ?_ ?_)
    · -- hidden unit k of row q
      unfold hiddenRow
      refine congrArg₂ max (congrArg₂ (· + ·) ?_ ?_) rfl
      · -- the first product, row q against column k
        refine (Cert.LibMatmulPlain.matmul_zero_apply none _ _ q k).trans
          (Finset.sum_congr rfl fun j _ => congrArg₂ (· * ·) ?_ ?_)
        · -- feature j of row q: the four bands of the two totals
          refine (join4_apply _ _ _ _ Facts₀.concatenates_S8x512_S8x512_S8x512_S8x512_S8x2048_d1 q j).trans ?_
          unfold features
          refine congrFun (bands4_congr ?_ ?_ ?_ ?_) j <;> funext d
          · refine (laneTotal _ _ _ _ q d).trans ?_; rw [shapeCast_self]
          · refine (laneTotal _ _ _ _ q d).trans ?_; rw [shapeCast_self]
          · refine (laneTotal _ _ _ _ q d).trans ?_; rw [shapeCast_self]
          · refine (laneTotal _ _ _ _ q d).trans ?_; rw [shapeCast_self]
        · exact congrFun (shapeCast_self _ _) _
      · -- the bias vector as a row, broadcast down the rows
        refine (Cert.LibBiasRows.row_broadcast _ _ (ix2 q k)).trans ?_
        exact Cert.LibBiasRows.row_of_vector x3 _ k
    · exact congrFun (shapeCast_self _ _) _
  · -- the second bias: one entry, as a 1 × 1 row broadcast down the rows
    refine (Cert.LibBiasRows.row_broadcast _ _ (ix2 q 0)).trans ?_
    exact Cert.LibBiasRows.row_of_vector x5 _ 0

end Cert.KernelIdeal.RowValue

end
-- ==== Proof.KernelValue.lean ====
/-
  From the eight blocks to the whole result array.

  Grid point t works on batch rows 8 t … 8 t + 7: its premise and hypothesis blocks are rows 8 t … 8 t + 7 of the two
  gathered stacks (all 256 / 384 sequence positions, all 512 columns), the weight and bias windows are the whole
  arrays at every point, and the [8, 1] block it writes back is rows 8 t … 8 t + 7 of the [64, 1] result.  By the row
  lemma its row q is the score of stack row 8 t + q, which is what the whole-array function `PairScore.scores` holds at
  (8 t + q, 0).  The eight blocks tile the 64 rows (row r lies in block r / 8), so after the run the result array is
  `PairScore.scores` of the arrays the region found.
-/
import proofs.«106932_j84335977824546_2_alg».proof.Proof.Gen.KernelIdeal.Value
import proofs.«106932_j84335977824546_2_alg».proof.Proof.KernelRow
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.PairScore
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The result as one function of the arrays the region finds: the scores of the two gathered stacks under the
    layer's parameters. -/
def result (c : Dev nD) : S64x1.Idx → EReal :=
  scores (V m c main_v6) (V m c main_v13) (V m c main_v14) (V m c main_arg6) (V m c main_v15) (V m c main_arg8)

/-- The index maps over the grid: the two stacks' blocks move with the result's along the batch axis and sit at 0 on
    the others; the parameters' windows never move. -/
theorem idx_facts : ∀ t : Fin cfg0.N,
    win0_0.index t (0 : Fin 3) = win0_6.index t (0 : Fin 2) ∧ win0_0.index t (1 : Fin 3) = 0 ∧ win0_0.index t (2 : Fin 3) = 0
    ∧ win0_1.index t (0 : Fin 3) = win0_6.index t (0 : Fin 2) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) ≤ 7 :=
  (by decide +kernel : ∀ t : Fin grid0.N, _)

/-- Every block of eight rows is some point's. -/
theorem idx_onto : ∀ q0 : Fin 8, ∃ t : Fin cfg0.N, win0_6.index t = ![q0.val, 0] :=
  (by decide +kernel : ∀ q0 : Fin 8, ∃ t : Fin grid0.N, win0_6.index t = ![q0.val, 0])

/-- A row's features read only that row of the two stacks. -/
theorem features_rows (A0 : S64x256x512.Idx → EReal) (A1 : S64x384x512.Idx → EReal) (x0 : S8x256x512.Idx → EReal)
    (x1 : S8x384x512.Idx → EReal) (r : Fin 64) (q : Fin 8)
    (h0 : ∀ (p : Fin 256) (d : Fin 512), x0 (ix3 q p d) = A0 (ix3 r p d))
    (h1 : ∀ (p : Fin 384) (d : Fin 512), x1 (ix3 q p d) = A1 (ix3 r p d)) :
    features x0 x1 q = features A0 A1 r := by
  have e0 : seqTotal x0 q = seqTotal A0 r := funext fun d => Finset.sum_congr rfl fun p _ => h0 p d
  have e1 : seqTotal x1 q = seqTotal A1 r := funext fun d => Finset.sum_congr rfl fun p _ => h1 p d
  unfold features
  rw [e0, e1]

theorem scoreRow_congr {φ φ' : Fin 2048 → EReal} {W1 W1' : S2048x512.Idx → EReal} {b1 b1' : S512.Idx → EReal}
    {W2 W2' : S512x1.Idx → EReal} {b2 b2' : S1.Idx → EReal} (hφ : φ = φ') (h1 : W1 = W1') (h2 : b1 = b1') (h3 : W2 = W2')
    (h4 : b2 = b2') : scoreRow φ W1 b1 W2 b2 = scoreRow φ' W1' b1' W2' b2' := by
  rw [hφ, h1, h2, h3, h4]

/-- WHAT POINT t WRITES BACK is block t of `result`. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero hz2]
  simp only [View.ld_unit_zero (S := S8x256x512) hz3, View.ld_unit_zero (S := S8x384x512) hz3,
    View.ld_unit_zero (S := S2048x512) hz2, View.ld_unit_zero (S := S512) hz1, View.ld_unit_zero (S := S512x1) hz2,
    View.ld_unit_zero (S := S1) hz1]
  obtain ⟨e00, e01, e02, e10, e11, e12, e20, e21, e30, e40, e41, e50, e61, e60⟩ := idx_facts t
  funext y
  obtain ⟨q, z, rfl⟩ : ∃ (q : Fin 8) (z : Fin 1), y = ix2 q z := ⟨y 0, y 1, eq_ix2 y⟩
  obtain rfl : z = 0 := Subsingleton.elim _ _
  show k0_pay1 (iblk m c 0 t) (iblk m c 1 t) (iblk m c 2 t) (iblk m c 3 t) (iblk m c 4 t) (iblk m c 5 t) (ix2 q 0)
    = result m c (((cfg0.win 6).blk t).view.emb (ix2 q 0))
  refine (RowValue.pay_apply (iblk m c 0 t) (iblk m c 1 t) (iblk m c 2 t) (iblk m c 3 t) (iblk m c 4 t) (iblk m c 5 t) q).trans ?_
  unfold result scores
  refine scoreRow_congr (features_rows _ _ _ _ _ q (fun p d => ?_) (fun p d => ?_)) (funext fun y => ?_) (funext fun y => ?_)
    (funext fun y => ?_) (funext fun y => ?_)
  · show V m c main_v6 (((cfg0.win 0).blk t).view.emb (ix3 q p d)) = V m c main_v6 _
    refine congrArg (V m c main_v6) (funext fun a => Fin.ext ?_)
    match a with
    | ⟨0, _⟩ => show win0_0.index t (0 : Fin 3) * 8 + 1 * q.val = win0_6.index t (0 : Fin 2) * 8 + 1 * q.val; omega
    | ⟨1, _⟩ => show win0_0.index t (1 : Fin 3) * 256 + 1 * p.val = p.val; omega
    | ⟨2, _⟩ => show win0_0.index t (2 : Fin 3) * 512 + 1 * d.val = d.val; omega
  · show V m c main_v13 (((cfg0.win 1).blk t).view.emb (ix3 q p d)) = V m c main_v13 _
    refine congrArg (V m c main_v13) (funext fun a => Fin.ext ?_)
    match a with
    | ⟨0, _⟩ => show win0_1.index t (0 : Fin 3) * 8 + 1 * q.val = win0_6.index t (0 : Fin 2) * 8 + 1 * q.val; omega
    | ⟨1, _⟩ => show win0_1.index t (1 : Fin 3) * 384 + 1 * p.val = p.val; omega
    | ⟨2, _⟩ => show win0_1.index t (2 : Fin 3) * 512 + 1 * d.val = d.val; omega
  · show V m c main_v14 (((cfg0.win 2).blk t).view.emb y) = V m c main_v14 y
    refine congrArg (V m c main_v14) (funext fun a => Fin.ext ?_)
    match a with
    | ⟨0, _⟩ => show win0_2.index t (0 : Fin 2) * 2048 + 1 * (y 0).val = (y 0).val; omega
    | ⟨1, _⟩ => show win0_2.index t (1 : Fin 2) * 512 + 1 * (y 1).val = (y 1).val; omega
  · show V m c main_arg6 (((cfg0.win 3).blk t).view.emb y) = V m c main_arg6 y
    refine congrArg (V m c main_arg6) (funext fun a => Fin.ext ?_)
    match a with
    | ⟨0, _⟩ => show win0_3.index t (0 : Fin 1) * 512 + 1 * (y 0).val = (y 0).val; omega
  · show V m c main_v15 (((cfg0.win 4).blk t).view.emb y) = V m c main_v15 y
    refine congrArg (V m c main_v15) (funext fun a => Fin.ext ?_)
    match a with
    | ⟨0, _⟩ => show win0_4.index t (0 : Fin 2) * 512 + 1 * (y 0).val = (y 0).val; omega
    | ⟨1, _⟩ => show win0_4.index t (1 : Fin 2) * 1 + 1 * (y 1).val = (y 1).val; omega
  · show V m c main_arg8 (((cfg0.win 5).blk t).view.emb y) = V m c main_arg8 y
    refine congrArg (V m c main_arg8) (funext fun a => Fin.ext ?_)
    match a with
    | ⟨0, _⟩ => show win0_5.index t (0 : Fin 1) * 1 + 1 * (y 0).val = (y 0).val; omega

/-- An index of the result array is in point t's block iff each coordinate is in the block's range on its axis. -/
theorem mem_blk (t : Fin cfg0.N) (i : S64x1.Idx) :
    i ∈ ((cfg0.win 6).blk t).view.set ↔ ∀ a : Fin 2, win0_6.index t a * S8x1.size a ≤ (i a).val
      ∧ (i a).val < win0_6.index t a * S8x1.size a + S8x1.size a := by
  show i ∈ ((View.whole main_v16).slice (win0_6.rect t)).set ↔ _
  rw [View.set_slice_whole, Rect.mem_set_unit]
  exact Iff.rfl

/-- Row r lies in the block of point r / 8: the eight blocks tile the 64 rows. -/
theorem cover (i : S64x1.Idx) :
    ∃ t : Fin cfg0.N, (cfg0.win 6).flush t = true ∧ i ∈ ((cfg0.win 6).blk t).view.set := by
  have hi0 : (i 0).val < 64 := (i 0).isLt
  have hi1 : (i 1).val < 1 := (i 1).isLt
  obtain ⟨t, ht⟩ := idx_onto ⟨(i 0).val / 8, by omega⟩
  have q0 : win0_6.index t (0 : Fin 2) = (i 0).val / 8 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 8 ≤ (i 0).val ∧ (i 0).val < win0_6.index t (0 : Fin 2) * 8 + 8
    omega
  | ⟨1, _⟩ =>
    show win0_6.index t (1 : Fin 2) * 1 ≤ (i 1).val ∧ (i 1).val < win0_6.index t (1 : Fin 2) * 1 + 1
    omega

/-- THE ARRAY after the run is `result`. -/
theorem final (c : Dev nD) : (dats m 0 c).arrAt 6 cfg0.N = result m c :=
  (dats m 0 c).arrAt_eq_of_cover 6 (result m c) (fun t _ => flushed_eq m c t) cover

/-- The kernel's run re-posted: the result array at `result`, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.ArrayValue

end
-- ==== Proof.HostGlue.lean ====
/-
  What the kernel's region finds in its windows' arrays, in terms of @main's arguments.

  Before the region the kernel's @main gathers the two stacks from the embedding table by the same operations, in the
  same order, as the reference does (negative indices wrapped by the table's extent, then a row gather), and converts
  W1 and W2 to bf16, which is the identity at the exact values.  So the result array after the kernel's run is
  `PairScore.scores` of the reference's own first two stages and of the four parameter arrays as launched.
-/
import proofs.«106932_j84335977824546_2_alg».proof.Proof.KernelValue
import proofs.«106932_j84335977824546_2_alg».proof.Proof.RefRead
import Idealize.ShloMosaic.Lib.StableHlo.Run

noncomputable section

namespace Cert.KernelIdeal.HostGlue

open Cert.KernelIdeal Cert.KernelIdeal.Gen Idealize.ShloMosaic Idealize.ShloMosaic.TcCoe Idealize.SL.Sem
open Idealize.ShloMosaic.StableHlo Cert.PairScore

variable (m : (ℓ : Loc nD τ sig) → Buf (Elt Ideal) ℓ)

/-- The premise stack the region finds is the reference's first gather of the launched arguments. -/
theorem V_pre (c : Dev nD) : (V m c main_v6 : S64x256x512.Idx → EReal)
    = Cert.ReferenceIdeal.ReadP.val_main_v6 (F := Ideal) (m ((c : Thread nD τ).loc main_arg0)) (m ((c : Thread nD τ).loc main_arg4)) := by
  dsimp only [Gen.V, Gen.hostOps0]
  after_results
  rfl

/-- The hypothesis stack the region finds is the reference's second gather of the launched arguments. -/
theorem V_hyp (c : Dev nD) : (V m c main_v13 : S64x384x512.Idx → EReal)
    = Cert.ReferenceIdeal.ReadP.val_main_v13 (F := Ideal) (m ((c : Thread nD τ).loc main_arg1)) (m ((c : Thread nD τ).loc main_arg4)) := by
  dsimp only [Gen.V, Gen.hostOps0]
  after_results
  rfl

/-- The first layer's weights the region finds are W1 as launched (the change of format is the identity). -/
theorem V_w1 (c : Dev nD) : (V m c main_v14 : S2048x512.Idx → EReal) = m ((c : Thread nD τ).loc main_arg5) := by
  dsimp only [Gen.V, Gen.hostOps0]
  after_results
  rfl

/-- The second layer's weights the region finds are W2 as launched. -/
theorem V_w2 (c : Dev nD) : (V m c main_v15 : S512x1.Idx → EReal) = m ((c : Thread nD τ).loc main_arg7) := by
  dsimp only [Gen.V, Gen.hostOps0]
  after_results
  rfl

/-- THE KERNEL'S RESULT in terms of the launched arguments. -/
theorem result_eq (c : Dev nD) : ArrayValue.result m c
    = scores (Cert.ReferenceIdeal.ReadP.val_main_v6 (F := Ideal) (m ((c : Thread nD τ).loc main_arg0)) (m ((c : Thread nD τ).loc main_arg4)))
        (Cert.ReferenceIdeal.ReadP.val_main_v13 (F := Ideal) (m ((c : Thread nD τ).loc main_arg1)) (m ((c : Thread nD τ).loc main_arg4)))
        (m ((c : Thread nD τ).loc main_arg5)) (m ((c : Thread nD τ).loc main_arg6)) (m ((c : Thread nD τ).loc main_arg7))
        (m ((c : Thread nD τ).loc main_arg8)) := by
  unfold ArrayValue.result
  rw [V_pre, V_hyp, V_w1, V_w2, V_main_arg6, V_main_arg8]

end Cert.KernelIdeal.HostGlue

end
-- ==== Proof.FiniteTable.lean ====
/-
  From the precondition to "every embedding entry is a real number".

  The precondition is the conjunction, over the five float arguments, of jnp.all (|x| < +∞).  Its first conjunct speaks
  of the embedding table: a reduce by `and` that is 1 had a 1 at every index, so |x| = max x (−x) is below the word of
  +∞, which denotes +∞, at every entry x; an extended real whose absolute value is below +∞ is neither infinity.
  (The other four conjuncts are not needed: the two programs apply the same dense layers to the same features.)
-/
import proofs.«106932_j84335977824546_2_alg».proof.Pre_finite_inputs
import proofs.«106932_j84335977824546_2_alg».proof.Proof.LibAttentionSums
import proofs.«106932_j84335977824546_2_alg».proof.Proof.LibWords
import Idealize.ShloMosaic.Lib.ReduceAll
import Idealize.ShloMosaic.Lib.Affine
import Idealize.ShloMosaic.Lib.ValueIdx
import Idealize.ShloMosaic.Lib.Pipeline.Value

noncomputable section

namespace Cert.Pre_finite_inputs.FiniteTable

open Cert.Pre_finite_inputs Idealize.ShloMosaic Idealize.ShloMosaic.ValueIdx Cert.AttentionSums

instance : Subsingleton S_.Idx := ⟨fun a b => funext fun d => d.elim0⟩

/-- Under the precondition every entry of the embedding table is a real number. -/
theorem table_real [Cert.Pre_finite_inputs.Facts] (a0 : IVec S64x256 32) (a1 : IVec S64x384 32) (a2 : IVec S64x256 32)
    (a3 : IVec S64x384 32) (a4 : FVec Ideal S50000x512 .f32) (a5 : FVec Ideal S2048x512 .f32) (a6 : FVec Ideal S512 .f32)
    (a7 : FVec Ideal S512x1 .f32) (a8 : FVec Ideal S1 .f32)
    (h : fn (F := Ideal) a0 a1 a2 a3 a4 a5 a6 a7 a8 = fun _ => 1#1) (i : S50000x512.Idx) : IsReal (a4 i) := by
  have h0 := congrFun h ix0
  dsimp only [fn, fn_part1] at h0
  have h1 := (IntOp.andi_eq_one.mp h0).1
  have h2 := (IntOp.andi_eq_one.mp h1).1
  have h3 := (IntOp.andi_eq_one.mp h2).1
  have h4 := (IntOp.andi_eq_one.mp h3).1
  have h5 := Host.reduce_andi_all _ _ _ _ _ h4 i
  have hb : broadcastInDim S50000x512 ![] Facts.bcast_S_S50000x512 (constant (F := Ideal) S_ .f32 0x7F800000#32) i
      = Ideal.ofBits .f32 0x7F800000#32 := broadcastInDim_apply _ _ _ i ix0 (fun a => a.elim0)
  have hx : max (a4 i) (-(a4 i)) < ⊤ := by
    have hc : Ideal.cmp .olt (max (a4 i) (-(a4 i))) (Ideal.ofBits .f32 0x7F800000#32) = 1#1 := by
      rw [← hb]; exact h5
    rw [Cert.Chamfer.Words.ofBits_top] at hc
    by_contra hlt
    have h0 : Ideal.cmp .olt (max (a4 i) (-(a4 i))) ⊤ = 0#1 := by
      show BitVec.ofBool (decide (max (a4 i) (-(a4 i)) < ⊤)) = 0#1
      rw [decide_eq_false hlt]; rfl
    rw [h0] at hc
    exact absurd hc (by decide)
  generalize a4 i = x at hx ⊢
  induction x using EReal.rec with
  | bot => simp at hx
  | coe r => exact ⟨r, rfl⟩
  | top => simp at hx

end Cert.Pre_finite_inputs.FiniteTable

end
-- ==== Proof.lean ====
/-
  A pair-scoring layer: the attention collapses to two sequence totals.

  Both programs gather a premise stack pre : [64, 256, 512] and a hypothesis stack hyp : [64, 384, 512] from one
  embedding table, form 2048 features per batch row, and score the row by a dense layer with a rectifier, a dense layer
  with one output and the logistic function.

  The reference's features are (Σ_p pre, Σ_p preAtt, Σ_h hyp, Σ_h hypAtt), where preAtt and hypAtt mix the other
  stack's rows by softmax weights of the rectified scores pre · hypᵀ, normalised over the premise positions and over the
  hypothesis positions.  Softmax weights along an axis sum to one, so the attended stack totalled over that axis is
  the other stack's plain total: Σ_p preAtt = Σ_h hyp and Σ_h hypAtt = Σ_p pre.  The kernel computes the features
  (Σ_p pre, Σ_h hyp, Σ_h hyp, Σ_p pre) directly, eight batch rows per grid point, and runs the same two layers on the
  vector unit.  On the extended reals the collapse needs every score, maximum and stack entry real — sums may be
  exchanged and a factor moved out of a sum only then — and that is what the precondition gives: a gathered entry is
  an entry of the table, and the table's entries are finite.  The weights and biases enter both programs through the
  same expressions, so their finiteness is never used; a change of float format is the identity at the exact values,
  and the logistic function is by definition 1 / (1 + exp (−z)), which is how the reference spells it.

  The modules: PairScore (the function both sides compute), LibAttentionSums (the softmax law), KernelRow / KernelValue /
  HostGlue (the kernel's result array is that function of the arguments), RefRun / RefTail / RefBands / RefAttention /
  RefScores (so is the reference's), FiniteTable (the table's entries are real under the precondition).
-/
import proofs.«106932_j84335977824546_2_alg».proof.Defs
import proofs.«106932_j84335977824546_2_alg».proof.Proof.Gen.Kernel
import proofs.«106932_j84335977824546_2_alg».proof.Proof.Gen.Kernel.Skeleton
import proofs.«106932_j84335977824546_2_alg».proof.Proof.Gen.Kernel.Launch
import proofs.«106932_j84335977824546_2_alg».proof.Proof.Gen.Kernel.Points
import proofs.«106932_j84335977824546_2_alg».proof.Proof.Gen.Kernel.Frame
import proofs.«106932_j84335977824546_2_alg».proof.Proof.Gen.KernelIdeal
import proofs.«106932_j84335977824546_2_alg».proof.Proof.Gen.KernelIdeal.Skeleton
import proofs.«106932_j84335977824546_2_alg».proof.Proof.Gen.KernelIdeal.Launch
import proofs.«106932_j84335977824546_2_alg».proof.Proof.Gen.KernelIdeal.Points
import proofs.«106932_j84335977824546_2_alg».proof.Proof.Gen.KernelIdeal.Frame
import proofs.«106932_j84335977824546_2_alg».proof.Proof.Gen.ReferenceIdeal
import proofs.«106932_j84335977824546_2_alg».proof.Proof.Gen.KernelIdeal.Value
import proofs.«106932_j84335977824546_2_alg».proof.Proof.RefOps
import proofs.«106932_j84335977824546_2_alg».proof.Proof.RefRead
import proofs.«106932_j84335977824546_2_alg».proof.Proof.Gen.Pre_finite_inputs
import proofs.«106932_j84335977824546_2_alg».proof.Proof.RefRun
import proofs.«106932_j84335977824546_2_alg».proof.Proof.RefScores
import proofs.«106932_j84335977824546_2_alg».proof.Proof.KernelValue
import proofs.«106932_j84335977824546_2_alg».proof.Proof.HostGlue
import proofs.«106932_j84335977824546_2_alg».proof.Proof.FiniteTable
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's run with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Run from memories agreeing on the arguments, both programs end with the scores of the two gathered stacks: the
    kernel by its blocks (`HostGlue.result_eq`), the reference by the softmax law (`RefScores.out_eq`), the
    embedding table real by the precondition. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8⟩ := hagree c
  show _ = Cert.KernelIdeal.ArrayValue.result m c
  rw [Cert.KernelIdeal.HostGlue.result_eq, e0, e1, e4, e5, e6, e7, e8]
  exact Cert.ReferenceIdeal.RefScores.out_eq _ _ _ _ _ _ _
    (fun i => Cert.Pre_finite_inputs.FiniteTable.table_real _ _ _ _ _ _ _ _ _ (hpre c) i)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
